-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel

variable [Facts]

def fn {F : FTy → Type} [FloatOps F] (main_arg0 : FVec F S256x512 .f32) (main_arg1 : FVec F S256x512 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  main_v8
-- ==== Kernel.lean ====
abbrev S256x512 : Shape := ⟨2, ![256, 512]⟩
abbrev S1x1 : Shape := ⟨2, ![1, 1]⟩
abbrev S32x512 : Shape := ⟨2, ![32, 512]⟩
abbrev S32x1x512 : Shape := ⟨3, ![32, 1, 512]⟩
abbrev S1x32x512 : Shape := ⟨3, ![1, 32, 512]⟩
abbrev S32x32x512 : Shape := ⟨3, ![32, 32, 512]⟩
abbrev S32x32 : Shape := ⟨2, ![32, 32]⟩
abbrev S32 : Shape := ⟨1, ![32]⟩
abbrev S32x1 : Shape := ⟨2, ![32, 1]⟩
abbrev S1 : Shape := ⟨1, ![1]⟩
abbrev S_ : Shape := ⟨0, ![]⟩

abbrev nBuf : Space → Nat
  | .hbm => 4
  | .vmem => 10
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S1x1, .f32⟩
  | .hbm, ⟨3, _⟩ => ⟨S_, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S1x1, .f32⟩
  | .local _ .vmem, ⟨9, _⟩ => ⟨S1x1, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c7_i32 : BitVec 32 := 7#32
  let v59 : BitVec 1 := Scalar.cmpi .eq arg0 c7_i32
  let arg1 : BitVec 32 := BitVec.ofNat 32 (i 1).val
  let c7_i32_19 : BitVec 32 := 7#32
  let v60 : BitVec 1 := Scalar.cmpi .eq arg1 c7_i32_19
  let v61 : BitVec 1 := Scalar.andi v59 v60
  let v62 : BitVec 32 := Scalar.extui v61
  let c0_i32_20 : BitVec 32 := 0#32
  let v63 : BitVec 1 := Scalar.cmpi .ne v62 c0_i32_20
  v63

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x512_S32x512_0_0 : ∀ a, (![0, 0] : Fin 2 → Nat) a + S32x512.size a ≤ S32x512.size a
  h_S32x512 : 0 < S32x512.numel
  shapeCasts_S32x512_S32x1x512 : S32x512.ShapeCasts S32x1x512
  shapeCasts_S32x512_S1x32x512 : S32x512.ShapeCasts S1x32x512
  broadcasts_S32x1x512_S32x32x512 : S32x1x512.Broadcasts S32x32x512
  broadcasts_S1x32x512_S32x32x512 : S1x32x512.Broadcasts S32x32x512
  reduces_S32x32x512_S32x32 : S32x32x512.Reduces [2] S32x32
  iota_S32x32_d0_w32 : S32x32.Iotas .tc 32 [0]
  iota_S32x32_d1_w32 : S32x32.Iotas .tc 32 [1]
  natLt_1_32 : 1 < 32
  reduces_S32x32_S32 : S32x32.Reduces [1] S32
  shapeCasts_S32_S32x1 : S32.ShapeCasts S32x1
  reduces_S32x1_S1 : S32x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512.size a ≤ S256x512.size a
  hwx0_0 : ∀ i : grid0.Coords, EltTy.bits .f32 = 32 ∨ (Rect.block (s := S256x512) S32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S256x512.size a
  hwx0_1 : ∀ i : grid0.Coords, EltTy.bits .f32 = 32 ∨ (Rect.block (s := S256x512) S32x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x512.size a ≤ S256x512.size a
  hwx0_2 : ∀ i : grid0.Coords, EltTy.bits .f32 = 32 ∨ (Rect.block (s := S256x512) S32x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S256x512.size a
  hwx0_3 : ∀ i : grid0.Coords, EltTy.bits .f32 = 32 ∨ (Rect.block (s := S256x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S32x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S32x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x512 : Shape := ⟨2, ![256, 512]⟩
abbrev S256x1x512 : Shape := ⟨3, ![256, 1, 512]⟩
abbrev S1x256x512 : Shape := ⟨3, ![1, 256, 512]⟩
abbrev S256x256x512 : Shape := ⟨3, ![256, 256, 512]⟩
abbrev S_ : Shape := ⟨0, ![]⟩
abbrev S256x256 : Shape := ⟨2, ![256, 256]⟩

abbrev nBuf : Space → Nat
  | .hbm => 46
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x512, .f32⟩
  | .hbm, ⟨2, _⟩ => ⟨S256x512, .f32⟩
  | .hbm, ⟨3, _⟩ => ⟨S256x1x512, .f32⟩
  | .hbm, ⟨4, _⟩ => ⟨S1x256x512, .f32⟩
  | .hbm, ⟨5, _⟩ => ⟨S256x1x512, .f32⟩
  | .hbm, ⟨6, _⟩ => ⟨S1x256x512, .f32⟩
  | .hbm, ⟨7, _⟩ => ⟨S256x1x512, .f32⟩
  | .hbm, ⟨8, _⟩ => ⟨S1x256x512, .f32⟩
  | .hbm, ⟨9, _⟩ => ⟨S256x256x512, .f32⟩
  | .hbm, ⟨10, _⟩ => ⟨S256x256x512, .f32⟩
  | .hbm, ⟨11, _⟩ => ⟨S256x256x512, .f32⟩
  | .hbm, ⟨12, _⟩ => ⟨S256x256x512, .f32⟩
  | .hbm, ⟨13, _⟩ => ⟨S256x256x512, .f32⟩
  | .hbm, ⟨14, _⟩ => ⟨S256x256x512, .f32⟩
  | .hbm, ⟨15, _⟩ => ⟨S256x256x512, .f32⟩
  | .hbm, ⟨16, _⟩ => ⟨S256x256x512, .f32⟩
  | .hbm, ⟨17, _⟩ => ⟨S256x256x512, .f32⟩
  | .hbm, ⟨18, _⟩ => ⟨S256x256x512, .f32⟩
  | .hbm, ⟨19, _⟩ => ⟨S256x256x512, .f32⟩
  | .hbm, ⟨20, _⟩ => ⟨S256x256x512, .f32⟩
  | .hbm, ⟨21, _⟩ => ⟨S256x256x512, .f32⟩
  | .hbm, ⟨22, _⟩ => ⟨S256x256x512, .f32⟩
  | .hbm, ⟨23, _⟩ => ⟨S_, .f32⟩
  | .hbm, ⟨24, _⟩ => ⟨S256x256x512, .f32⟩
  | .hbm, ⟨25, _⟩ => ⟨S256x256x512, .f32⟩
  | .hbm, ⟨26, _⟩ => ⟨S_, .f32⟩
  | .hbm, ⟨27, _⟩ => ⟨S256x256, .f32⟩
  | .hbm, ⟨28, _⟩ => ⟨S_, .f32⟩
  | .hbm, ⟨29, _⟩ => ⟨S256x256, .f32⟩
  | .hbm, ⟨30, _⟩ => ⟨S256x256, .f32⟩
  | .hbm, ⟨31, _⟩ => ⟨S256x256, .i32⟩
  | .hbm, ⟨32, _⟩ => ⟨S256x256, .i32⟩
  | .hbm, ⟨33, _⟩ => ⟨S_, .i32⟩
  | .hbm, ⟨34, _⟩ => ⟨S256x256, .i32⟩
  | .hbm, ⟨35, _⟩ => ⟨S256x256, .i32⟩
  | .hbm, ⟨36, _⟩ => ⟨S256x256, .i1⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_cst : Ref sig .tc := ⟨.hbm, 23, rfl⟩
abbrev main_v21 : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_2 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_cst_4 : Ref sig .tc := ⟨.hbm, 44, rfl⟩
abbrev main_v36 : Ref sig .tc := ⟨.hbm, 45, rfl⟩

abbrev nD : Nat := 1
abbrev τ : Topo := Topo.v7x

variable {F : FTy → Type} [FloatOps F]

class Facts₀ : Prop where
  bcast_S256x512_S256x1x512_0_2 : S256x512.BroadcastsInDim S256x1x512 (![0, 2] : Fin 2 → Fin S256x1x512.rank)
  bcast_S256x512_S1x256x512_1_2 : S256x512.BroadcastsInDim S1x256x512 (![1, 2] : Fin 2 → Fin S1x256x512.rank)
  bcast_S1x256x512_S256x256x512_0_1_2 : S1x256x512.BroadcastsInDim S256x256x512 (![0, 1, 2] : Fin 3 → Fin S256x256x512.rank)
  bcast_S256x1x512_S256x256x512_0_1_2 : S256x1x512.BroadcastsInDim S256x256x512 (![0, 1, 2] : Fin 3 → Fin S256x256x512.rank)
  bcast_S_S256x256x512 : S_.BroadcastsInDim S256x256x512 (![] : Fin 0 → Fin S256x256x512.rank)
  reducesTo_S256x256x512_S256x256_d2 : S256x256x512.ReducesTo [2] S256x256
  h_S_ : 0 < S_.numel
  bcast_S_S256x256 : S_.BroadcastsInDim S256x256 (![] : Fin 0 → Fin S256x256.rank)
  reducesTo_S256x256_S_d0_1 : S256x256.ReducesTo [0, 1] S_

variable [Facts₀]

class Facts : Prop extends Facts₀ where

variable [Facts]
-- ==== Proof.KitW.lean ====
/-
  What the frame of the pairwise-divergence kernel is stated over, shared by its runs and its launch.

  The kernel walks an 8 x 8 grid of tiles (i, j) of the 256 x 256 matrix of pairs of rows. At each tile it is
  handed rows 32 i .. 32 i + 31 of both argument arrays (windows 0 and 1) and rows 32 j .. 32 j + 31 of both
  (windows 2 and 3), adds the tile's masked sum to a 1 x 1 accumulator kept in scratch (set to zero at the
  first tile), and at the last tile writes accumulator / 256 to the 1 x 1 result (window 4). Here: the array
  contents as the region finds them, each window's block at a tile, the two conditions of the body in closed
  form over the 64 tiles, where window 4 is idle, and the accumulator after each tile as a recursion.
-/
import proofs.«174177_j38474317038467_2_alg».proof.Proof.Gen.Kernel.Launch
import proofs.«174177_j38474317038467_2_alg».proof.Proof.Gen.Kernel.Skeleton
import proofs.«174177_j38474317038467_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host operation precedes it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region followed by the one reshape of the 1 x 1 result to a scalar. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The first conditional of the body (reset the accumulator): both grid coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first tile only. -/
theorem hcond0_0 : ∀ t : Fin cfg0.N, cond0_0 (grid0.coords t) ↔ t.val = 0 :=
  (by decide +kernel : ∀ t : Fin grid0.N, cond0_0 (grid0.coords t) ↔ t.val = 0)

/-- The second conditional of the body (write the result): both grid coordinates are seven. -/
abbrev cond0_1 (i : grid0.Coords) : Prop := k0_cond2 i = 1#1
/-- It holds at the last tile only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile the result window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The staging and scratch memrefs -/

abbrev ms0_0 (t : Fin cfg0.N) : Memref sig .tc .vmem S32x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1x1 .f32 := Memref.whole cc0_scratch0
abbrev VS0_0 : View sig .tc .vmem S1x1 .f32 := scM0_0.view
abbrev VO0_4 : View sig .tc .vmem S1x1 .f32 := (Memref.whole cc0_stg4_0 : Memref sig .tc .vmem S1x1 .f32).view

/-- The scoped rest of the region is the accumulator at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

/-! ## The shares of the two argument arrays -/

/-- Each argument array is read through two windows (rows of tile i, rows of tile j): the first of the pair holds
    the left half of the array's share, the second the right half; the result's window holds its array whole. -/
def qIn : Fin 5 → PosShare TreeShare
  | 0 => fullShare.left
  | 1 => fullShare.left
  | 2 => fullShare.right
  | 3 => fullShare.right
  | 4 => fullShare
  | ⟨_ + 5, h⟩ => absurd h (Nat.not_lt.2 (Nat.le_add_left _ _))

/-! ## The accumulator, tile by tile -/

/-- The accumulator after tile `t`, from the accumulator `s` the tile's additions start from: `s` plus the
    tile's masked sum (the body's stored value over the four blocks of the tile). -/
def stepAt (c : Dev nD) (t : Fin cfg0.N) (s : Vec F S1x1 .f32) : Vec F S1x1 .f32 :=
  k0_pay1 (BitVec.ofNat 32 ((grid0.coords t) 1).val)
    (k0_pay4 (iblk m c 0 t) (iblk m c 1 t) (iblk m c 2 t) (iblk m c 3 t))
    (iota .tc S32x32 32 [0] iota_S32x32_d0_w32) (k0_pay5 (grid0.coords t)) s

/-- The accumulator before tile `n` (after tile `n - 1`): zero before the first, then one step per tile. -/
def accAt (c : Dev nD) : (n : ℕ) → n ≤ cfg0.N → Vec F S1x1 .f32
  | 0, _ => k0_pay3 (F := F)
  | n + 1, h => stepAt m c ⟨n, h⟩ (accAt c n (Nat.le_of_lt h))

theorem accAt_zero (c : Dev nD) (h : 0 ≤ cfg0.N) : accAt m c 0 h = k0_pay3 (F := F) := rfl
theorem accAt_succ (c : Dev nD) (n : ℕ) (h : n + 1 ≤ cfg0.N) :
    accAt m c (n + 1) h = stepAt m c ⟨n, h⟩ (accAt m c n (Nat.le_of_lt h)) := rfl

end Cert.Kernel.Gen

end
-- ==== Proof.RunAW.lean ====
/-
  The body's run at the first tile of the 64.

  The first conditional of the body is taken and the second is not: the body stores zero into the accumulator,
  loads the four blocks of the tile, reads the accumulator back, and stores accumulator + the tile's masked sum
  into it. The result's buffer is not touched. The run is stated on any whole memrefs: the four inputs' at
  their blocks, the result's at contents handed back as they were, the accumulator's at anything; what it
  leaves in the accumulator is the list of pieces the run finds (two stores, the later one first).
-/
import proofs.«174177_j38474317038467_2_alg».proof.Proof.KitW

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a tile where the first condition holds and the second does not: from the four input buffers at
    `x0 .. x3`, the result's buffer at `xi4` and the accumulator at any contents, it runs to the continuation
    holding the inputs and the result's buffer as they were and the accumulator with the run's pieces `LS0`
    written. -/
noncomputable def kernelRun0_A (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S32x512 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kl_kernel i arg2 harg2 arg3 harg3 arg4 harg4 arg5 harg5 arg6 harg6 arg7 harg7) K } := by
  refine ⟨[], ?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Gen

end
-- ==== Proof.RunBW.lean ====
/-
  The body's run at a middle tile (neither the first nor the last of the 64).

  Neither conditional of the body is taken: the body loads the four blocks of the tile, reads the accumulator,
  and stores accumulator + the tile's masked sum back into it. The result's buffer is not touched. The run is
  stated on any whole memrefs: the four inputs' at their blocks, the result's at contents handed back as they
  were, the accumulator's at the contents the tile before left; what it leaves in the accumulator is the list
  of pieces the run finds (one store).
-/
import proofs.«174177_j38474317038467_2_alg».proof.Proof.RunAW

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a tile where neither condition holds: from the four input buffers at `x0 .. x3`, the result's
    buffer at `xi4` and the accumulator at `xs0`, it runs to the continuation holding the inputs and the result's
    buffer as they were and the accumulator with the run's pieces `LS0` written. -/
noncomputable def kernelRun0_B (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S32x512 .f32) (xs0 : Vec F S1x1 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kl_kernel i arg2 harg2 arg3 harg3 arg4 harg4 arg5 harg5 arg6 harg6 arg7 harg7) K } := by
  refine ⟨[], ?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.Kernel.Gen

end
-- ==== Proof.RunCW.lean ====
/-
  The body's run at the last tile of the 64.

  The first conditional of the body is not taken and the second is: the body loads the four blocks of the tile,
  reads the accumulator, stores accumulator + the tile's masked sum back into it, reads it once more and stores
  that value / 256 into the result's buffer. The run is stated on any whole memrefs: the four inputs' at their
  blocks, the result's at anything, the accumulator's at the contents the tile before left; what it leaves in
  the result's buffer and in the accumulator are the lists of pieces the run finds (one store each).
-/
import proofs.«174177_j38474317038467_2_alg».proof.Proof.RunBW

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a tile where the first condition fails and the second holds: from the four input buffers at
    `x0 .. x3`, the result's buffer at any contents and the accumulator at `xs0`, it runs to the continuation
    holding the inputs as they were, the result's buffer with the run's pieces `L4` written and the accumulator
    with the run's pieces `LS0` written. -/
noncomputable def kernelRun0_C (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, ?_, fun E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.Kernel.Gen

end
-- ==== Proof.BodyW.lean ====
/-
  The body of the pairwise-divergence kernel at every tile, and what it leaves.

  From the three runs of the body (first tile, middle tiles, last tile): what each leaves in the accumulator and,
  at the last tile, in the result's buffer, as reads of the pieces the runs found; these tile by tile as one
  recursion; the proof data of the pipeline (the arrays as the region finds them, each input's buffer at its
  block, the result's buffer and the accumulator at the recursion's values, each argument array's share split
  between the two windows that read it); the body obligation at every tile; the invariant's two ends; and the
  accumulator and the result in closed form over the body's stored values: the accumulator after tile n is the
  recursion "zero, then one masked tile sum added per tile", the result at the last tile is that / 256.
-/
import proofs.«174177_j38474317038467_2_alg».proof.Proof.RunCW

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first tile's pieces for the accumulator cover it. -/
theorem scover0_A_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S32x512 .f32) (y : S1x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1x1.size (by sl_kernel_rfl) y

/-- What the first tile leaves in the accumulator: its pieces read back. -/
def sout0_A_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S32x512 .f32) : Vec F S1x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- A middle tile's pieces for the accumulator cover it. -/
theorem scover0_B_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S32x512 .f32) (xs0 : Vec F S1x1 .f32) (y : S1x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1x1.size (by sl_kernel_rfl) y

/-- What a middle tile leaves in the accumulator: its pieces read back. -/
def sout0_B_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S32x512 .f32) (xs0 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- The last tile's pieces for the result's buffer cover it. -/
theorem cover0_C_4 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1.size (by sl_kernel_rfl) y

/-- What the last tile leaves in the result's buffer: its pieces read back. -/
def out0_C_4 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) : Vec F S1x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The last tile's pieces for the accumulator cover it. -/
theorem scover0_C_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1x1.size (by sl_kernel_rfl) y

/-- What the last tile leaves in the accumulator: its pieces read back. -/
def sout0_C_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- The result's buffer where no tile has stored into it: a placeholder nothing consults (away from the last
    tile the window is idle and is not written back). -/
def out0_idle_4 : Vec F S1x1 .f32 := VO0_4.read (Elt F) VO0_4.junk

/-! ## Tile by tile -/

/-- What the result's buffer and the accumulator hold after the body at tile `n`: the first tile's run at
    tile 0, the last tile's at tile 63, a middle tile's otherwise, each at the tile's memrefs and blocks and,
    after the first, over the accumulator the tile before left. -/
def outsAt0 (c : Dev nD) : (n : ℕ) → n < cfg0.N → Vec F S1x1 .f32 × Vec F S1x1 .f32
  | 0, hn => (out0_idle_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h1 : n + 1 = 63 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
    else
      (out0_idle_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At the first tile. -/
theorem outsAt0_A (c : Dev nD) (t : Fin cfg0.N) (h0 : t.val = 0) (h1 : ¬t.val = 63) :
    outsAt0 m c t.val t.isLt = (out0_idle_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact absurd h0 (Nat.succ_ne_zero n)

/-- At a middle tile: over what the tile before left. -/
theorem outsAt0_B (c : Dev nD) (t : Fin cfg0.N) (h0 : ¬t.val = 0) (h1 : ¬t.val = 63) :
    outsAt0 m c t.val t.isLt = (out0_idle_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- At the last tile: over what the tile before left. -/
theorem outsAt0_C (c : Dev nD) (t : Fin cfg0.N) (h0 : ¬t.val = 0) (h1 : t.val = 63) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region's invariant before tile `n`: the accumulator, at anything before the first tile and afterwards at
    what the tile before left in it. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare ((outsAt0 m c n hn).2)

theorem PhiS_zero (c : Dev nD) (n : ℕ) (h : n ≤ cfg0.N) (hz : n = 0) :
    PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data of the pipeline on core `c`: the arrays as the region finds them; after the body at tile `t`
    each input's buffer at its block, the result's at the recursion's value; the invariant the accumulator's;
    nothing owed; each argument array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := qIn w
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qIn w := by
  dsimp only [dats]

theorem owed_eq (c : Dev nD) (t : Fin (cfg0.N + 1)) : (dats m 0 c).owed t = 0 := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's buffer holds its block at every tile, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any tile: the inputs' buffers hold their blocks; the closed forms of the two conditions say
    which of the three runs applies; the invariant hands the run the accumulator (at anything at the first tile,
    then at what the tile before left) and takes it back at this tile's value; away from the last tile the
    result's buffer goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 64 := lt_of_lt_of_eq t.isLt (show cfg0.N = 64 from N_0)
  by_cases h0 : t.val = 0
  · have h1 : ¬t.val = 63 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    rw [PhiS_castSucc m c t, PhiS_zero m c _ _ h0]
    iintro ⟨HS0, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0]
    · unfold owns; iexists _; isplitr
      swap; · iexact HS0
      ipureintro; exact View.read_writes_of_cover _ _ _ _ _ (scover0_A_0 c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · by_cases h1 : t.val = 63
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ h0]
      iintro ⟨HS0, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ h0]
      iintro ⟨HS0, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every tile. -/
theorem body_obligation (c : Dev nD) : BodyObligation (dats (F := F) m 0 c) (defs₀ (F := F)) Variants.none () Set.univ := fun t => by
  rw [bigSep_W0, bigSep_W0]
  exact sound_body m c t

/-- What the launch hands the region — the accumulator at some contents — is the invariant before the first tile. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl, scopedRest0_owns]
  try exact Idealize.SL.BI.Entails.refl _

/-- After any tile the invariant gives it back: the accumulator's named contents are forgotten. -/
theorem Phi_out (c : Dev nD) (t : Fin (cfg0.N + 1)) (ht : t.val ≠ 0) : (dats m 0 c).Φ t ⊢ (Pipeline.scopedRest spec0 c : sProp 𝕄) := by
  rw [show (dats m 0 c).Φ t = PhiS m c t.val (Nat.le_of_lt_succ t.isLt) from rfl, PhiS_pos m c _ _ ht, scopedRest0_owns]
  iintro HS0
  iexists _; iexact HS0

/-- The same after the last tile. -/
theorem hout (c : Dev nD) : (dats m 0 c).Φ (Fin.last cfg0.N) ⊢ (Pipeline.scopedRest spec0 c : sProp 𝕄) :=
  Phi_out m c _ (by rw [Fin.val_last]; have : cfg0.N = 64 := N_0; omega)

end Cert.Kernel.Gen

end
-- ==== Proof.LaunchW.lean ====
/-
  The launch of the pairwise-divergence kernel: from any proof data over the region whose arrays are the
  contents the region finds and whose two argument arrays are each split between the two windows that read
  them, the body obligation and the two ends of the invariant, to the run of the whole @main — the region,
  then the reshape of the 1 x 1 result to a scalar.

  Two things are particular to this kernel. The argument arrays are each handed to the region through two
  windows, so the region starts from the three distinct buffers behind the five windows' arrays and splits
  each argument's whole points-to into a left and a right half, one per window. And a line follows the
  region: it reads the result window's array, which the region gives back whole, and writes the scalar,
  which bypasses the region.
-/
import proofs.«174177_j38474317038467_2_alg».proof.Proof.KitW
import Idealize.ShloMosaic.Lib.Pipeline.Value

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scalar the reshape writes -/

/-- What the reshape after the region writes into the scalar from contents `x` of the 1 x 1 result: the one
    element of `x`, re-indexed at the scalar shape. -/
def resultOf (c : Dev nD) (x : Buf (Elt F) ((c.tc : Thread nD τ).loc main_v0)) : Buf (Elt F) ((c.tc : Thread nD τ).loc main_v1) :=
  shapeCast S_ x shapeCasts_S1x1_S_

/-- Read at the one index of the scalar shape it is `x` at the one index of the 1 x 1 shape. -/
theorem resultOf_apply (c : Dev nD) (x : Buf (Elt F) ((c.tc : Thread nD τ).loc main_v0)) (i : S_.Idx) (j : S1x1.Idx) :
    resultOf c x i = x j := by
  unfold resultOf
  refine shapeCast_apply x shapeCasts_S1x1_S_ i j ?_
  show (S1x1.rowMajor j).val = (S_.rowMajor i).val
  have h1 : (S1x1.rowMajor j).val < 1 := lt_of_lt_of_eq (S1x1.rowMajor j).isLt (by decide)
  have h2 : (S_.rowMajor i).val < 1 := lt_of_lt_of_eq (S_.rowMajor i).isLt (by decide)
  omega

/-! ## The arrays at entry: the argument arrays split between their windows -/

/-- The buffers behind the windows' arrays are the two arguments and the result. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0)
          ∗ (((c.tc : Thread nD τ).loc main_arg1) ↦{fullShare} W main_arg1)
          ∗ (((c.tc : Thread nD τ).loc main_v0) ↦{fullShare} W main_v0)) := by
  unfold Pipeline.arrBufs
  exact bigSep_eq_bigSepL_of_eq [main_arg0, main_arg1, main_v0] (by decide) (by decide) _

/-- The windows' arrays, each a whole buffer, window by window at its share. -/
theorem arrays0_eq {c : Dev nD} (dat : Dat τ (Elt F) Unit ℕ (UR sig nD τ) ℕ cfg0 c)
    (G : (w : Fin cfg0.W) → Buf (Elt F) ((cfg0.win w).arr.view.loc (c.tc : Thread nD τ))) :
    (dat.arrays G : sProp 𝕄)
      = iprop((((c.tc : Thread nD τ).loc main_arg0) ↦{dat.share 0} G 0)
          ∗ (((c.tc : Thread nD τ).loc main_arg1) ↦{dat.share 1} G 1)
          ∗ (((c.tc : Thread nD τ).loc main_arg0) ↦{dat.share 2} G 2)
          ∗ (((c.tc : Thread nD τ).loc main_arg1) ↦{dat.share 3} G 3)
          ∗ (((c.tc : Thread nD τ).loc main_v0) ↦{dat.share 4} G 4)) := by
  unfold Dat.arrays
  rw [show (bigSep Finset.univ fun w : Fin cfg0.W => ((cfg0.win w).arr.view.loc (c.tc : Thread nD τ) ↦[(cfg0.win w).arr.view.set]{dat.share w} G w : sProp 𝕄))
      = bigSep Finset.univ fun w : Fin cfg0.W => ((((c.tc : Thread nD τ).loc (Pipeline.arrRef spec0 w)) ↦{dat.share w} G w : sProp 𝕄))
    from bigSep_congr fun w _ => by rw [(arr_whole0 w).set_eq_univ]]
  rw [bigSep_W0]

/-- An input window's share is the one the proof data names; the result window holds its array whole. -/
theorem share0_in {c : Dev nD} (dat : Dat τ (Elt F) Unit ℕ (UR sig nD τ) ℕ cfg0 c) (w : Fin cfg0.W) (hw : (cfg0.win w).isOut = false) :
    dat.share w = dat.q w := by
  unfold Dat.share; rw [hw]; rfl
theorem share0_4 {c : Dev nD} (dat : Dat τ (Elt F) Unit ℕ (UR sig nD τ) ℕ cfg0 c) : dat.share 4 = fullShare := by
  unfold Dat.share; rfl

/-- At entry: each argument's whole points-to is halved, the left half to the window on the rows of tile i, the
    right half to the window on the rows of tile j; the result's goes to its window whole. -/
theorem hsplit (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qIn w) (c : Dev nD) :
    (Pipeline.arrBufs (Ix := Unit) (Name := ℕ) (U := UR sig nD τ) (Lvl := ℕ) spec0 c (V m c) : sProp 𝕄)
      ⊢ (dats 0 c).arrays ((dats 0 c).arrAt · 0) := by
  rw [arrBufs0_eq, arrays0_eq (dats 0 c)]
  rw [share0_in (dats 0 c) 0 rfl, share0_in (dats 0 c) 1 rfl, share0_in (dats 0 c) 2 rfl, share0_in (dats 0 c) 3 rfl, share0_4 (dats 0 c)]
  rw [hq c 0, hq c 1, hq c 2, hq c 3]
  rw [show (dats 0 c).arrAt 0 0 = V m c main_arg0 from hA c 0, show (dats 0 c).arrAt 1 0 = V m c main_arg1 from hA c 1,
    show (dats 0 c).arrAt 2 0 = V m c main_arg0 from hA c 2, show (dats 0 c).arrAt 3 0 = V m c main_arg1 from hA c 3,
    show (dats 0 c).arrAt 4 0 = V m c main_v0 from hA c 4]
  rw [show qIn 0 = fullShare.left from rfl, show qIn 1 = fullShare.left from rfl, show qIn 2 = fullShare.right from rfl,
    show qIn 3 = fullShare.right from rfl]
  iintro ⟨H0, H1, H4⟩
  ihave H0 := (pointsTo_share (PosShare.mem_left_op_right fullShare)).1 $$ H0
  ihave H1 := (pointsTo_share (PosShare.mem_left_op_right fullShare)).1 $$ H1
  icases H0 with ⟨H0l, H0r⟩
  icases H1 with ⟨H1l, H1r⟩
  isplitl [H0l]; · iexact H0l
  isplitl [H1l]; · iexact H1l
  isplitl [H0r]; · iexact H0r
  isplitl [H1r]; · iexact H1r
  iexact H4

/-! ## The line after the region -/

/-- The two buffers the reshape touches, held at a valuation, one by one. -/
theorem held_v0_v1 (c : Dev nD) (W : Valuation τ sig (Elt F)) :
    (StableHlo.held (c.tc : Thread nD τ) {Proc.devRef .tc main_v0, Proc.devRef .tc main_v1} W : sProp 𝕄)
      = iprop((((c.tc : Thread nD τ).loc main_v0) ↦{fullShare} W (Proc.devRef .tc main_v0))
          ∗ (((c.tc : Thread nD τ).loc main_v1) ↦{fullShare} W (Proc.devRef .tc main_v1))) := by
  unfold StableHlo.held
  rw [bigSep_insert (by rw [Finset.mem_singleton]; exact StableHlo.devRef_ne_of_ne (by decide)), bigSep_singleton]
  rfl

/-- The core's contents with the result at `x`: what the line after the region starts from. -/
def tailVal (c : Dev nD) (x : Buf (Elt F) ((c.tc : Thread nD τ).loc main_v0)) : Valuation τ sig (Elt F) :=
  Function.update (V0 m c) (Proc.devRef .tc main_v0) x

theorem tailVal_v0 (c : Dev nD) (x : Buf (Elt F) ((c.tc : Thread nD τ).loc main_v0)) :
    tailVal m c x (Proc.devRef .tc main_v0) = x := Function.update_self _ _ _
theorem tailVal_v1 (c : Dev nD) (x : Buf (Elt F) ((c.tc : Thread nD τ).loc main_v0)) :
    tailVal m c x (Proc.devRef .tc main_v1) = V m c main_v1 :=
  Function.update_of_ne (StableHlo.devRef_ne_of_ne (by decide)) _ _

/-- After the reshape the result is as it was and the scalar holds its one element. -/
theorem after_tailVal_v0 (c : Dev nD) (x : Buf (Elt F) ((c.tc : Thread nD τ).loc main_v0)) :
    StableHlo.after ([hostOps1] : List (List (HloOp τ sig (Elt F)))).flatten (tailVal m c x) (Proc.devRef .tc main_v0) = x := by
  rw [StableHlo.after_of_forall_not_mem _ _ fun op hop => ?_, tailVal_v0]
  simp only [List.flatten_cons, List.flatten_nil, List.append_nil, hostOps1, List.mem_cons, List.mem_nil_iff, or_false] at hop
  subst hop
  rw [StableHlo.reshape_writes, Finset.mem_singleton]
  exact StableHlo.devRef_ne_of_ne (by decide)
theorem after_tailVal_v1 (c : Dev nD) (x : Buf (Elt F) ((c.tc : Thread nD τ).loc main_v0)) :
    StableHlo.after ([hostOps1] : List (List (HloOp τ sig (Elt F)))).flatten (tailVal m c x) (Proc.devRef .tc main_v1) = resultOf c x := by
  show (StableHlo.reshape main_v0 main_v1 rfl shapeCasts_S1x1_S_ : HloOp τ sig (Elt F)).result (tailVal m c x) (Proc.devRef .tc main_v1) = resultOf c x
  rw [StableHlo.reshape_result, tailVal_v0]
  rfl

/-- The line touches the result and the scalar only, -/
theorem tail_sub : ∀ ops ∈ ([hostOps1] : List (List (HloOp τ sig (Elt F)))), ∀ op ∈ ops,
    op.bufs ⊆ ({Proc.devRef .tc main_v0, Proc.devRef .tc main_v1} : Finset (DevRef τ sig)) := by
  intro ops hops op hop
  simp only [List.mem_cons, List.mem_nil_iff, or_false] at hops
  subst hops
  simp only [hostOps1, List.mem_cons, List.mem_nil_iff, or_false] at hop
  subst hop
  rw [StableHlo.reshape_bufs]
/-- and allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- From the region's exit — the boundary, the windows' arrays at any contents `G`, the scalar as the region
    found it — the reshape runs holding the result's array (which its window holds whole) and the scalar, and
    hands back the arrays as they were and the scalar at the one element of the result. -/
theorem htail (dats : (p : Fin 1) → (c : Dev nD) → Dat τ (Elt F) Unit ℕ (UR sig nD τ) ℕ (cfgs p) c)
    (c : Dev nD) (G : (w : Fin cfg0.W) → Buf (Elt F) ((cfg0.win w).arr.view.loc (c.tc : Thread nD τ)))
    (Q' : PUnit → sProp 𝕄) :
    iprop((iprop((dats 0 c).arrays G ∗ (((c.tc : Thread nD τ).loc main_v1) ↦{fullShare} resultOf c (G 4))) -∗ Q' ⟨⟩)
        ∗ boundary (c.tc : Thread nD τ) ∗ (dats 0 c).arrays G
        ∗ Pipeline.unscopedRest (Ix := Unit) (Name := ℕ) (U := UR sig nD τ) (Lvl := ℕ) spec0 c (V m c))
      ⊢ wp frame (wpE (Pipeline.defs (fun p => (cfgs p).toPCfg (Val := Elt F)) defs₀) (Variants.lift Variants.none) (c.tc : Thread nD τ) none) Set.univ
          (Pipeline.chain [StableHlo.seq hostOps1]) Q' := by
  have key := Pipeline.wp_seqs_then (Ix := Unit) (Name := ℕ) (U := UR sig nD τ) (Lvl := ℕ) (fun p => (cfgs p).toPCfg (Val := Elt F)) defs₀ Variants.none c
    {Proc.devRef .tc main_v0, Proc.devRef .tc main_v1} [] (K := Q') [hostOps1] tail_sub tail_fresh (tailVal m c (G 4))
  rw [held_v0_v1, held_v0_v1, after_tailVal_v0, after_tailVal_v1, tailVal_v0, tailVal_v1, Pipeline.chain_nil, wp_pure] at key
  rw [arrays0_eq (dats 0 c) G, unscopedRest0_eq, share0_4 (dats 0 c)]
  iintro ⟨Hk, Hb, ⟨H0, H1, H2, H3, H4⟩, HZ⟩
  iapply key $$ [Hb H4 HZ]
  · isplitl [Hb]; · iexact Hb
    isplitl [H4]; · iexact H4
    iexact HZ
  iintro ⟨Hb, H4, HZ⟩
  imodintro
  iapply Hk
  isplitr [HZ]
  · isplitl [H0]; · iexact H0
    isplitl [H1]; · iexact H1
    isplitl [H2]; · iexact H2
    isplitl [H3]; · iexact H3
    iexact H4
  · iexact HZ

/-! ## The run -/

set_option backward.isDefEq.respectTransparency.types false in
/-- From any memory with zero counters every weakly fair execution of @main terminates; every window's array ends
    at what the library computes from the proof data, and the scalar at the one element of the result's. -/
theorem run_of_body
    (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qIn w)
    (howed : ∀ c t, (dats 0 c).owed t = 0)
    (hbody : ∀ c, Pipeline.BodyObligationLoose (dats 0 c) defs₀ Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (fun r => ∀ c : Dev nD,
      (∀ w, r.2.mem (((cfgs 0).spec w).arr.view.loc (c.tc : Thread nD τ)) = (dats 0 c).arrAt w (cfgs 0).N)
      ∧ r.2.mem ((c.tc : Thread nD τ).loc main_v1) = resultOf c ((dats 0 c).arrAt 4 (cfgs 0).N)) := by
  classical
  exact Pipeline.θ_run_region_noSem_pf_tail (fun p => (cfgs p).toPCfg) (fun p => (cfgs p).toPCfg_adm) dats () cellOf_inj 0
    winFacts₀0 (Pipeline.PreFacts.none _) emb₁ defs₀ Variants.none
    m ρ main (fun _ => Pipeline.chain [StableHlo.seq hostOps1]) hbody block_pos0 arr_whole0 stage_whole0 howed
    (u₀ := initOf (Pipeline.cells cfgs cellOf_inj) (Pipeline.launchToks cfgs cellOf_inj)) (hu₀ := .rfl)
    (V := V m) (hmain := hmain m Variants.none) (hsplit := hsplit m dats hA hq) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => (((c.tc : Thread nD τ).loc main_v1) ↦{fullShare} resultOf c ((dats 0 c).arrAt 4 (cfgs 0).N) : sProp 𝕄))
    (hX := fun c => by
      rw [Pipeline.unscopedRestP_none]
      iintro H
      isplitr
      · iempintro
      · iexact H)
    (hin := fun c => (show _ ⊢ (Pipeline.scopedRest spec0 c : sProp 𝕄) from by iintro ⟨-, -, H⟩; iexact H).trans (hin c))
    (hout := fun c => (hout c).trans (by
      iintro H
      isplitr
      · iempintro
      · iexact H))
    (htail := fun c Q' => htail m dats c _ Q')
    (QY := fun c s => s.mem ((c.tc : Thread nD τ).loc main_v1) = resultOf c ((dats 0 c).arrAt 4 (cfgs 0).N))
    (hY := fun c s' => by
      iintro ⟨-, HZ, HSI⟩
      imodintro
      ihave H := (pointsTo_read_all ({()} : Finset Unit) (fun _ => (c.tc : Thread nD τ).loc main_v1)
        (fun _ => resultOf c ((dats 0 c).arrAt 4 (cfgs 0).N)) s') $$ [HZ HSI]
      · rw [bigSep_singleton]
        isplitl [HZ] <;> iassumption
      icases H with ⟨%h, HSI⟩
      isplitr
      · ipureintro; exact h () (Finset.mem_singleton_self _)
      · iexact HSI)
    (hQ := fun s h c => ⟨(h c).1, (h c).2.2⟩)

/-! ## The frame -/

/-- The argument arrays end as they began: each is read through two input windows, whose arrays are never
    written. -/
theorem frame_of
    (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (fun r => ∀ c : Dev nD,
      (∀ w, r.2.mem (((cfgs 0).spec w).arr.view.loc (c.tc : Thread nD τ)) = (dats 0 c).arrAt w (cfgs 0).N)
      ∧ r.2.mem ((c.tc : Thread nD τ).loc main_v1) = resultOf c ((dats 0 c).arrAt 4 (cfgs 0).N))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

end Cert.Kernel.Gen

end
-- ==== Proof.FrameW.lean ====
/-
  The run of the whole program and its frame: the region on the 8 x 8 grid, then the reshape of the result.

  The body obligation at every tile, the two ends of the accumulator's invariant and the split of the two argument
  arrays between the windows that share them give the run; every array then holds what the write-backs left, the
  argument arrays what they held at launch.
-/
import proofs.«174177_j38474317038467_2_alg».proof.Proof.BodyW
import proofs.«174177_j38474317038467_2_alg».proof.Proof.LaunchW

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution of the program terminates; each window's array ends at what the write-backs left
    and the scalar result at the reshape of the 1 x 1 result array. -/
theorem run_main : θ_run defs (onTc (τ := τ) (main (F := F))) (s₀ m ρ) (fun r => ∀ c : Dev nD,
      (∀ w, r.2.mem (((cfgs 0).spec w).arr.view.loc (c.tc : Thread nD τ)) = (dats m 0 c).arrAt w (cfgs 0).N)
      ∧ r.2.mem ((c.tc : Thread nD τ).loc main_v1) = resultOf c ((dats m 0 c).arrAt 4 (cfgs 0).N)) :=
  run_of_body m ρ (dats m) (A_eq m) (q_eq m) (owed_eq m) (fun c => (body_obligation m c).loose) (hin m) (hout m)

/-- The frame: the program runs and the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Gen

end
-- ==== Proof.Kit.lean ====
/-
  What the frame of the pairwise-divergence kernel is stated over, shared by its runs and its launch.

  The kernel walks an 8 x 8 grid of tiles (i, j) of the 256 x 256 matrix of pairs of rows. At each tile it is
  handed rows 32 i .. 32 i + 31 of both argument arrays (windows 0 and 1) and rows 32 j .. 32 j + 31 of both
  (windows 2 and 3), adds the tile's masked sum to a 1 x 1 accumulator kept in scratch (set to zero at the
  first tile), and at the last tile writes accumulator / 256 to the 1 x 1 result (window 4). Here: the array
  contents as the region finds them, each window's block at a tile, the two conditions of the body in closed
  form over the 64 tiles, where window 4 is idle, and the accumulator after each tile as a recursion.
-/
import proofs.«174177_j38474317038467_2_alg».proof.Proof.Gen.KernelIdeal.Launch
import proofs.«174177_j38474317038467_2_alg».proof.Proof.Gen.KernelIdeal.Skeleton
import proofs.«174177_j38474317038467_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: no host operation precedes it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region followed by the one reshape of the 1 x 1 result to a scalar. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at tile `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- The first conditional of the body (reset the accumulator): both grid coordinates are zero. -/
abbrev cond0_0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first tile only. -/
theorem hcond0_0 : ∀ t : Fin cfg0.N, cond0_0 (grid0.coords t) ↔ t.val = 0 :=
  (by decide +kernel : ∀ t : Fin grid0.N, cond0_0 (grid0.coords t) ↔ t.val = 0)

/-- The second conditional of the body (write the result): both grid coordinates are seven. -/
abbrev cond0_1 (i : grid0.Coords) : Prop := k0_cond2 i = 1#1
/-- It holds at the last tile only. -/
theorem hcond0_1 : ∀ t : Fin cfg0.N, cond0_1 (grid0.coords t) ↔ t.val = 63 :=
  (by decide +kernel : ∀ t : Fin grid0.N, cond0_1 (grid0.coords t) ↔ t.val = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last tile the result window is idle and is not written back. -/
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At the last tile it is live. -/
theorem liveAt0_4 : ∀ t : Fin cfg0.N, cond0_1 (grid0.coords t) → cfg0.idle 4 (grid0.coords t) = false := by decide +kernel

/-! ## The staging and scratch memrefs -/

abbrev ms0_0 (t : Fin cfg0.N) : Memref sig .tc .vmem S32x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1 .f32 := win0_4.stage (cfg0.slots t 4)
abbrev hs0_4 (t : Fin cfg0.N) : (ms0_4 t).IsWhole := hstage0_4 ((cfg0.slots t 4).cast nbuf0_4)
/-- The accumulator: a whole scoped buffer of the kernel's own. -/
abbrev scM0_0 : Memref sig .tc .vmem S1x1 .f32 := Memref.whole cc0_scratch0
abbrev VS0_0 : View sig .tc .vmem S1x1 .f32 := scM0_0.view
abbrev VO0_4 : View sig .tc .vmem S1x1 .f32 := (Memref.whole cc0_stg4_0 : Memref sig .tc .vmem S1x1 .f32).view

/-- The scoped rest of the region is the accumulator at some contents. -/
theorem scopedRest0_owns (c : Dev nD) :
    (Pipeline.scopedRest (Ix := Unit) (Name := ℕ) (U := UR sig nD τ) (Lvl := ℕ) (Val := Elt F) spec0 c : sProp 𝕄)
      = iprop(∃ d, owns (c : Thread nD τ) scM0_0 fullShare d) := by
  rw [scopedRest0_eq]; simp only [scM0_0, owns_whole]; try rfl

/-! ## The shares of the two argument arrays -/

/-- Each argument array is read through two windows (rows of tile i, rows of tile j): the first of the pair holds
    the left half of the array's share, the second the right half; the result's window holds its array whole. -/
def qIn : Fin 5 → PosShare TreeShare
  | 0 => fullShare.left
  | 1 => fullShare.left
  | 2 => fullShare.right
  | 3 => fullShare.right
  | 4 => fullShare
  | ⟨_ + 5, h⟩ => absurd h (Nat.not_lt.2 (Nat.le_add_left _ _))

/-! ## The accumulator, tile by tile -/

/-- The accumulator after tile `t`, from the accumulator `s` the tile's additions start from: `s` plus the
    tile's masked sum (the body's stored value over the four blocks of the tile). -/
def stepAt (c : Dev nD) (t : Fin cfg0.N) (s : Vec F S1x1 .f32) : Vec F S1x1 .f32 :=
  k0_pay1 (BitVec.ofNat 32 ((grid0.coords t) 1).val)
    (k0_pay4 (iblk m c 0 t) (iblk m c 1 t) (iblk m c 2 t) (iblk m c 3 t))
    (iota .tc S32x32 32 [0] iota_S32x32_d0_w32) (k0_pay5 (grid0.coords t)) s

/-- The accumulator before tile `n` (after tile `n - 1`): zero before the first, then one step per tile. -/
def accAt (c : Dev nD) : (n : ℕ) → n ≤ cfg0.N → Vec F S1x1 .f32
  | 0, _ => k0_pay3 (F := F)
  | n + 1, h => stepAt m c ⟨n, h⟩ (accAt c n (Nat.le_of_lt h))

theorem accAt_zero (c : Dev nD) (h : 0 ≤ cfg0.N) : accAt m c 0 h = k0_pay3 (F := F) := rfl
theorem accAt_succ (c : Dev nD) (n : ℕ) (h : n + 1 ≤ cfg0.N) :
    accAt m c (n + 1) h = stepAt m c ⟨n, h⟩ (accAt m c n (Nat.le_of_lt h)) := rfl

end Cert.KernelIdeal.Gen

end
-- ==== Proof.RunA.lean ====
/-
  The body's run at the first tile of the 64.

  The first conditional of the body is taken and the second is not: the body stores zero into the accumulator,
  loads the four blocks of the tile, reads the accumulator back, and stores accumulator + the tile's masked sum
  into it. The result's buffer is not touched. The run is stated on any whole memrefs: the four inputs' at
  their blocks, the result's at contents handed back as they were, the accumulator's at anything; what it
  leaves in the accumulator is the list of pieces the run finds (two stores, the later one first).
-/
import proofs.«174177_j38474317038467_2_alg».proof.Proof.Kit

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a tile where the first condition holds and the second does not: from the four input buffers at
    `x0 .. x3`, the result's buffer at `xi4` and the accumulator at any contents, it runs to the continuation
    holding the inputs and the result's buffer as they were and the accumulator with the run's pieces `LS0`
    written. -/
noncomputable def kernelRun0_A (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S32x512 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kl_kernel i arg2 harg2 arg3 harg3 arg4 harg4 arg5 harg5 arg6 harg6 arg7 harg7) K } := by
  refine ⟨[], ?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3
    obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Gen

end
-- ==== Proof.RunB.lean ====
/-
  The body's run at a middle tile (neither the first nor the last of the 64).

  Neither conditional of the body is taken: the body loads the four blocks of the tile, reads the accumulator,
  and stores accumulator + the tile's masked sum back into it. The result's buffer is not touched. The run is
  stated on any whole memrefs: the four inputs' at their blocks, the result's at contents handed back as they
  were, the accumulator's at the contents the tile before left; what it leaves in the accumulator is the list
  of pieces the run finds (one store).
-/
import proofs.«174177_j38474317038467_2_alg».proof.Proof.RunA

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a tile where neither condition holds: from the four input buffers at `x0 .. x3`, the result's
    buffer at `xi4` and the accumulator at `xs0`, it runs to the continuation holding the inputs and the result's
    buffer as they were and the accumulator with the run's pieces `LS0` written. -/
noncomputable def kernelRun0_B (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S32x512 .f32) (xs0 : Vec F S1x1 .f32) :
    Σ' (L4 : List (View.Piece (Elt F) S1x1 .f32)), { LS0 : List (View.Piece (Elt F) S1x1 .f32) //
      ∀ (xi4 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__kl_kernel i arg2 harg2 arg3 harg3 arg4 harg4 arg5 harg5 arg6 harg6 arg7 harg7) K } := by
  refine ⟨[], ?_, fun xi4 E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

end Cert.KernelIdeal.Gen

end
-- ==== Proof.RunC.lean ====
/-
  The body's run at the last tile of the 64.

  The first conditional of the body is not taken and the second is: the body loads the four blocks of the tile,
  reads the accumulator, stores accumulator + the tile's masked sum back into it, reads it once more and stores
  that value / 256 into the result's buffer. The run is stated on any whole memrefs: the four inputs' at their
  blocks, the result's at anything, the accumulator's at the contents the tile before left; what it leaves in
  the result's buffer and in the accumulator are the lists of pieces the run finds (one store each).
-/
import proofs.«174177_j38474317038467_2_alg».proof.Proof.RunB

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at a tile where the first condition fails and the second holds: from the four input buffers at
    `x0 .. x3`, the result's buffer at any contents and the accumulator at `xs0`, it runs to the continuation
    holding the inputs as they were, the result's buffer with the run's pieces `L4` written and the accumulator
    with the run's pieces `LS0` written. -/
noncomputable def kernelRun0_C (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__kl_kernel i arg2 harg2 arg3 harg3 arg4 harg4 arg5 harg5 arg6 harg6 arg7 harg7) K } := by
  refine ⟨?_, ?_, fun E K => ?run⟩
  case run =>
    simp only [cc0__kl_kernel_eq_skeleton]; unfold cc0__kl_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3
    obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Cert.KernelIdeal.Gen

end
-- ==== Proof.Body.lean ====
/-
  The body of the pairwise-divergence kernel at every tile, and what it leaves.

  From the three runs of the body (first tile, middle tiles, last tile): what each leaves in the accumulator and,
  at the last tile, in the result's buffer, as reads of the pieces the runs found; these tile by tile as one
  recursion; the proof data of the pipeline (the arrays as the region finds them, each input's buffer at its
  block, the result's buffer and the accumulator at the recursion's values, each argument array's share split
  between the two windows that read it); the body obligation at every tile; the invariant's two ends; and the
  accumulator and the result in closed form over the body's stored values: the accumulator after tile n is the
  recursion "zero, then one masked tile sum added per tile", the result at the last tile is that / 256.
-/
import proofs.«174177_j38474317038467_2_alg».proof.Proof.RunC

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first tile's pieces for the accumulator cover it. -/
theorem scover0_A_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S32x512 .f32) (y : S1x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1x1.size (by sl_kernel_rfl) y

/-- What the first tile leaves in the accumulator: its pieces read back. -/
def sout0_A_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S32x512 .f32) : Vec F S1x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- A middle tile's pieces for the accumulator cover it. -/
theorem scover0_B_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S32x512 .f32) (xs0 : Vec F S1x1 .f32) (y : S1x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1x1.size (by sl_kernel_rfl) y

/-- What a middle tile leaves in the accumulator: its pieces read back. -/
def sout0_B_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S32x512 .f32) (xs0 : Vec F S1x1 .f32) : Vec F S1x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- The last tile's pieces for the result's buffer cover it. -/
theorem cover0_C_4 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1x1.size (by sl_kernel_rfl) y

/-- What the last tile leaves in the result's buffer: its pieces read back. -/
def out0_C_4 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) : Vec F S1x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

/-- The last tile's pieces for the accumulator cover it. -/
theorem scover0_C_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) (y : S1x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1x1.size (by sl_kernel_rfl) y

/-- What the last tile leaves in the accumulator: its pieces read back. -/
def sout0_C_0 (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) : Vec F S1x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-- The result's buffer where no tile has stored into it: a placeholder nothing consults (away from the last
    tile the window is idle and is not written back). -/
def out0_idle_4 : Vec F S1x1 .f32 := VO0_4.read (Elt F) VO0_4.junk

/-! ## Tile by tile -/

/-- What the result's buffer and the accumulator hold after the body at tile `n`: the first tile's run at
    tile 0, the last tile's at tile 63, a middle tile's otherwise, each at the tile's memrefs and blocks and,
    after the first, over the accumulator the tile before left. -/
def outsAt0 (c : Dev nD) : (n : ℕ) → n < cfg0.N → Vec F S1x1 .f32 × Vec F S1x1 .f32
  | 0, hn => (out0_idle_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr rfl) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩))
  | n + 1, hn =>
    if h1 : n + 1 = 63 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)
    else
      (out0_idle_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => Nat.succ_ne_zero n ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn)).2)

/-- At the first tile. -/
theorem outsAt0_A (c : Dev nD) (t : Fin cfg0.N) (h0 : t.val = 0) (h1 : ¬t.val = 63) :
    outsAt0 m c t.val t.isLt = (out0_idle_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)) := by
  obtain ⟨n, hn⟩ := t
  cases n with
  | zero => exact rfl
  | succ n => exact absurd h0 (Nat.succ_ne_zero n)

/-- At a middle tile: over what the tile before left. -/
theorem outsAt0_B (c : Dev nD) (t : Fin cfg0.N) (h0 : ¬t.val = 0) (h1 : ¬t.val = 63) :
    outsAt0 m c t.val t.isLt = (out0_idle_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- At the last tile: over what the tile before left. -/
theorem outsAt0_C (c : Dev nD) (t : Fin cfg0.N) (h0 : ¬t.val = 0) (h1 : t.val = 63) :
    outsAt0 m c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-- The region's invariant before tile `n`: the accumulator, at anything before the first tile and afterwards at
    what the tile before left in it. -/
def PhiS (c : Dev nD) : (n : ℕ) → n ≤ cfg0.N → sProp 𝕄
  | 0, _ => iprop(∃ d, owns (c : Thread nD τ) scM0_0 fullShare d)
  | n + 1, hn => owns (c : Thread nD τ) scM0_0 fullShare ((outsAt0 m c n hn).2)

theorem PhiS_zero (c : Dev nD) (n : ℕ) (h : n ≤ cfg0.N) (hz : n = 0) :
    PhiS m c n h = iprop(∃ d, owns (c : Thread nD τ) scM0_0 fullShare d) := by
  subst hz; rfl

theorem PhiS_succ (c : Dev nD) (n : ℕ) (hn : n < cfg0.N) :
    PhiS m c (n + 1) hn = owns (c : Thread nD τ) scM0_0 fullShare ((outsAt0 m c n hn).2) := rfl

theorem PhiS_pos (c : Dev nD) (n : ℕ) (h : n ≤ cfg0.N) (hz : n ≠ 0) :
    PhiS m c n h = owns (c : Thread nD τ) scM0_0 fullShare ((outsAt0 m c (n - 1) (by omega)).2) := by
  cases n with
  | zero => exact absurd rfl hz
  | succ n => rfl

/-! ## The pipeline's proof data -/

/-- The proof data of the pipeline on core `c`: the arrays as the region finds them; after the body at tile `t`
    each input's buffer at its block, the result's at the recursion's value; the invariant the accumulator's;
    nothing owed; each argument array's share halved between its two windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
  Φ t := PhiS m c t.val (Nat.le_of_lt_succ t.isLt)
  q w := qIn w
  owed _ := 0

theorem A_eq (c : Dev nD) (w : Fin cfg0.W) : (dats m 0 c).A w = V m c (Pipeline.arrRef spec0 w) := by
  dsimp only [dats]

theorem q_eq (c : Dev nD) (w : Fin cfg0.W) : (dats m 0 c).q w = qIn w := by
  dsimp only [dats]

theorem owed_eq (c : Dev nD) (t : Fin (cfg0.N + 1)) : (dats m 0 c).owed t = 0 := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]

/-- Each input's buffer holds its block at every tile, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## The body obligation -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]

set_option maxHeartbeats 4800000 in
/-- The body at any tile: the inputs' buffers hold their blocks; the closed forms of the two conditions say
    which of the three runs applies; the invariant hands the run the accumulator (at anything at the first tile,
    then at what the tile before left) and takes it back at this tile's value; away from the last tile the
    result's buffer goes back as it came. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3]
  have hN : t.val < 64 := lt_of_lt_of_eq t.isLt (show cfg0.N = 64 from N_0)
  by_cases h0 : t.val = 0
  · have h1 : ¬t.val = 63 := by omega
    rw [Dat.leavesExact_idle (dats m 0 c) 4 t (idleAt0_4 t (fun h => h1 ((hcond0_1 t).mp h))) (noFlush0_4 t (fun h => h1 ((hcond0_1 t).mp h)))]
    rw [outsAt0_A m c t h0 h1]
    unfold sout0_A_0; (try dsimp only)
    rw [PhiS_castSucc m c t, PhiS_zero m c _ _ h0]
    iintro ⟨HS0, Ho, ⟨%d0, H0⟩, ⟨%d1, H1⟩, ⟨%d2, H2⟩, ⟨%d3, H3⟩, ⟨%d4, H4⟩⟩
    iapply ((kernelRun0_A c (grid0.coords t) _ _ _ _ _ _ _ _ _ _ _ _ ((hcond0_0 t).mpr h0) (fun h => h1 ((hcond0_1 t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0]
    · unfold owns; iexists _; isplitr
      swap; · iexact HS0
      ipureintro; exact View.read_writes_of_cover _ _ _ _ _ (scover0_A_0 c _ _ _ _ _ _ _ _ _ _ _ _ _ _ _ _ _ _ _)
    isplitl [Ho]; · iexact Ho
    isplitl [H0]; · iexact H0
    isplitl [H1]; · iexact H1
    isplitl [H2]; · iexact H2
    isplitl [H3]; · iexact H3
    iexists _; iexact H4
  · by_cases h1 : t.val = 63
    · rw [show (dats m 0 c).leavesExact 4 t = owns (c : Thread nD τ) (ms0_4 t) fullShare ((dats m 0 c).after 4 t) from by
        unfold Dat.leavesExact; rw [liveAt0_4 t ((hcond0_1 t).mpr h1)], after0_4]
      rw [outsAt0_C m c t h0 h1]
      unfold out0_C_4 sout0_C_0; (try dsimp only)
      rw [PhiS_castSucc m c t, PhiS_pos m c _ _ h0]
      iintro ⟨HS0, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0]
      · unfold owns; iexists _; isplitr
        swap; · iexact HS0
        ipureintro; exact View.read_writes_of_cover _ _ _ _ _ (scover0_C_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [Dat.leavesExact_idle (dats m 0 c) 4 t (idleAt0_4 t (fun h => h1 ((hcond0_1 t).mp h))) (noFlush0_4 t (fun h => h1 ((hcond0_1 t).mp h)))]
      rw [outsAt0_B m c t h0 h1]
      unfold sout0_B_0; (try dsimp only)
      rw [PhiS_castSucc m c t, PhiS_pos m c _ _ h0]
      iintro ⟨HS0, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0]
      · unfold owns; iexists _; isplitr
        swap; · iexact HS0
        ipureintro; exact View.read_writes_of_cover _ _ _ _ _ (scover0_B_0 c _ _ _ _ _ _ _ _ _ _ _ _ _ _ _ _ _ _ _ _)
      isplitl [Ho]; · iexact Ho
      isplitl [H0]; · iexact H0
      isplitl [H1]; · iexact H1
      isplitl [H2]; · iexact H2
      isplitl [H3]; · iexact H3
      iexists _; iexact H4

/-- The library's body obligation, at every tile. -/
theorem body_obligation (c : Dev nD) : BodyObligation (dats (F := F) m 0 c) (defs₀ (F := F)) Variants.none () Set.univ := fun t => by
  rw [bigSep_W0, bigSep_W0]
  exact sound_body m c t

/-- What the launch hands the region — the accumulator at some contents — is the invariant before the first tile. -/
theorem hin (c : Dev nD) : (Pipeline.scopedRest spec0 c : sProp 𝕄) ⊢ (dats m 0 c).Φ 0 := by
  rw [show (dats m 0 c).Φ 0 = PhiS m c 0 (Nat.zero_le _) from rfl, PhiS_zero m c 0 _ rfl, scopedRest0_owns]
  try exact Idealize.SL.BI.Entails.refl _

/-- After any tile the invariant gives it back: the accumulator's named contents are forgotten. -/
theorem Phi_out (c : Dev nD) (t : Fin (cfg0.N + 1)) (ht : t.val ≠ 0) : (dats m 0 c).Φ t ⊢ (Pipeline.scopedRest spec0 c : sProp 𝕄) := by
  rw [show (dats m 0 c).Φ t = PhiS m c t.val (Nat.le_of_lt_succ t.isLt) from rfl, PhiS_pos m c _ _ ht, scopedRest0_owns]
  iintro HS0
  iexists _; iexact HS0

/-- The same after the last tile. -/
theorem hout (c : Dev nD) : (dats m 0 c).Φ (Fin.last cfg0.N) ⊢ (Pipeline.scopedRest spec0 c : sProp 𝕄) :=
  Phi_out m c _ (by rw [Fin.val_last]; have : cfg0.N = 64 := N_0; omega)

end Cert.KernelIdeal.Gen

end
-- ==== Proof.Launch.lean ====
/-
  The launch of the pairwise-divergence kernel: from any proof data over the region whose arrays are the
  contents the region finds and whose two argument arrays are each split between the two windows that read
  them, the body obligation and the two ends of the invariant, to the run of the whole @main — the region,
  then the reshape of the 1 x 1 result to a scalar.

  Two things are particular to this kernel. The argument arrays are each handed to the region through two
  windows, so the region starts from the three distinct buffers behind the five windows' arrays and splits
  each argument's whole points-to into a left and a right half, one per window. And a line follows the
  region: it reads the result window's array, which the region gives back whole, and writes the scalar,
  which bypasses the region.
-/
import proofs.«174177_j38474317038467_2_alg».proof.Proof.Kit
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scalar the reshape writes -/

/-- What the reshape after the region writes into the scalar from contents `x` of the 1 x 1 result: the one
    element of `x`, re-indexed at the scalar shape. -/
def resultOf (c : Dev nD) (x : Buf (Elt F) ((c.tc : Thread nD τ).loc main_v0)) : Buf (Elt F) ((c.tc : Thread nD τ).loc main_v1) :=
  shapeCast S_ x shapeCasts_S1x1_S_

/-- Read at the one index of the scalar shape it is `x` at the one index of the 1 x 1 shape. -/
theorem resultOf_apply (c : Dev nD) (x : Buf (Elt F) ((c.tc : Thread nD τ).loc main_v0)) (i : S_.Idx) (j : S1x1.Idx) :
    resultOf c x i = x j := by
  unfold resultOf
  refine shapeCast_apply x shapeCasts_S1x1_S_ i j ?_
  show (S1x1.rowMajor j).val = (S_.rowMajor i).val
  have h1 : (S1x1.rowMajor j).val < 1 := lt_of_lt_of_eq (S1x1.rowMajor j).isLt (by decide)
  have h2 : (S_.rowMajor i).val < 1 := lt_of_lt_of_eq (S_.rowMajor i).isLt (by decide)
  omega

/-! ## The arrays at entry: the argument arrays split between their windows -/

/-- The buffers behind the windows' arrays are the two arguments and the result. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0)
          ∗ (((c.tc : Thread nD τ).loc main_arg1) ↦{fullShare} W main_arg1)
          ∗ (((c.tc : Thread nD τ).loc main_v0) ↦{fullShare} W main_v0)) := by
  unfold Pipeline.arrBufs
  exact bigSep_eq_bigSepL_of_eq [main_arg0, main_arg1, main_v0] (by decide) (by decide) _

/-- The windows' arrays, each a whole buffer, window by window at its share. -/
theorem arrays0_eq {c : Dev nD} (dat : Dat τ (Elt F) Unit ℕ (UR sig nD τ) ℕ cfg0 c)
    (G : (w : Fin cfg0.W) → Buf (Elt F) ((cfg0.win w).arr.view.loc (c.tc : Thread nD τ))) :
    (dat.arrays G : sProp 𝕄)
      = iprop((((c.tc : Thread nD τ).loc main_arg0) ↦{dat.share 0} G 0)
          ∗ (((c.tc : Thread nD τ).loc main_arg1) ↦{dat.share 1} G 1)
          ∗ (((c.tc : Thread nD τ).loc main_arg0) ↦{dat.share 2} G 2)
          ∗ (((c.tc : Thread nD τ).loc main_arg1) ↦{dat.share 3} G 3)
          ∗ (((c.tc : Thread nD τ).loc main_v0) ↦{dat.share 4} G 4)) := by
  unfold Dat.arrays
  rw [show (bigSep Finset.univ fun w : Fin cfg0.W => ((cfg0.win w).arr.view.loc (c.tc : Thread nD τ) ↦[(cfg0.win w).arr.view.set]{dat.share w} G w : sProp 𝕄))
      = bigSep Finset.univ fun w : Fin cfg0.W => ((((c.tc : Thread nD τ).loc (Pipeline.arrRef spec0 w)) ↦{dat.share w} G w : sProp 𝕄))
    from bigSep_congr fun w _ => by rw [(arr_whole0 w).set_eq_univ]]
  rw [bigSep_W0]

/-- An input window's share is the one the proof data names; the result window holds its array whole. -/
theorem share0_in {c : Dev nD} (dat : Dat τ (Elt F) Unit ℕ (UR sig nD τ) ℕ cfg0 c) (w : Fin cfg0.W) (hw : (cfg0.win w).isOut = false) :
    dat.share w = dat.q w := by
  unfold Dat.share; rw [hw]; rfl
theorem share0_4 {c : Dev nD} (dat : Dat τ (Elt F) Unit ℕ (UR sig nD τ) ℕ cfg0 c) : dat.share 4 = fullShare := by
  unfold Dat.share; rfl

/-- At entry: each argument's whole points-to is halved, the left half to the window on the rows of tile i, the
    right half to the window on the rows of tile j; the result's goes to its window whole. -/
theorem hsplit (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qIn w) (c : Dev nD) :
    (Pipeline.arrBufs (Ix := Unit) (Name := ℕ) (U := UR sig nD τ) (Lvl := ℕ) spec0 c (V m c) : sProp 𝕄)
      ⊢ (dats 0 c).arrays ((dats 0 c).arrAt · 0) := by
  rw [arrBufs0_eq, arrays0_eq (dats 0 c)]
  rw [share0_in (dats 0 c) 0 rfl, share0_in (dats 0 c) 1 rfl, share0_in (dats 0 c) 2 rfl, share0_in (dats 0 c) 3 rfl, share0_4 (dats 0 c)]
  rw [hq c 0, hq c 1, hq c 2, hq c 3]
  rw [show (dats 0 c).arrAt 0 0 = V m c main_arg0 from hA c 0, show (dats 0 c).arrAt 1 0 = V m c main_arg1 from hA c 1,
    show (dats 0 c).arrAt 2 0 = V m c main_arg0 from hA c 2, show (dats 0 c).arrAt 3 0 = V m c main_arg1 from hA c 3,
    show (dats 0 c).arrAt 4 0 = V m c main_v0 from hA c 4]
  rw [show qIn 0 = fullShare.left from rfl, show qIn 1 = fullShare.left from rfl, show qIn 2 = fullShare.right from rfl,
    show qIn 3 = fullShare.right from rfl]
  iintro ⟨H0, H1, H4⟩
  ihave H0 := (pointsTo_share (PosShare.mem_left_op_right fullShare)).1 $$ H0
  ihave H1 := (pointsTo_share (PosShare.mem_left_op_right fullShare)).1 $$ H1
  icases H0 with ⟨H0l, H0r⟩
  icases H1 with ⟨H1l, H1r⟩
  isplitl [H0l]; · iexact H0l
  isplitl [H1l]; · iexact H1l
  isplitl [H0r]; · iexact H0r
  isplitl [H1r]; · iexact H1r
  iexact H4

/-! ## The line after the region -/

/-- The two buffers the reshape touches, held at a valuation, one by one. -/
theorem held_v0_v1 (c : Dev nD) (W : Valuation τ sig (Elt F)) :
    (StableHlo.held (c.tc : Thread nD τ) {Proc.devRef .tc main_v0, Proc.devRef .tc main_v1} W : sProp 𝕄)
      = iprop((((c.tc : Thread nD τ).loc main_v0) ↦{fullShare} W (Proc.devRef .tc main_v0))
          ∗ (((c.tc : Thread nD τ).loc main_v1) ↦{fullShare} W (Proc.devRef .tc main_v1))) := by
  unfold StableHlo.held
  rw [bigSep_insert (by rw [Finset.mem_singleton]; exact StableHlo.devRef_ne_of_ne (by decide)), bigSep_singleton]
  rfl

/-- The core's contents with the result at `x`: what the line after the region starts from. -/
def tailVal (c : Dev nD) (x : Buf (Elt F) ((c.tc : Thread nD τ).loc main_v0)) : Valuation τ sig (Elt F) :=
  Function.update (V0 m c) (Proc.devRef .tc main_v0) x

theorem tailVal_v0 (c : Dev nD) (x : Buf (Elt F) ((c.tc : Thread nD τ).loc main_v0)) :
    tailVal m c x (Proc.devRef .tc main_v0) = x := Function.update_self _ _ _
theorem tailVal_v1 (c : Dev nD) (x : Buf (Elt F) ((c.tc : Thread nD τ).loc main_v0)) :
    tailVal m c x (Proc.devRef .tc main_v1) = V m c main_v1 :=
  Function.update_of_ne (StableHlo.devRef_ne_of_ne (by decide)) _ _

/-- After the reshape the result is as it was and the scalar holds its one element. -/
theorem after_tailVal_v0 (c : Dev nD) (x : Buf (Elt F) ((c.tc : Thread nD τ).loc main_v0)) :
    StableHlo.after ([hostOps1] : List (List (HloOp τ sig (Elt F)))).flatten (tailVal m c x) (Proc.devRef .tc main_v0) = x := by
  rw [StableHlo.after_of_forall_not_mem _ _ fun op hop => ?_, tailVal_v0]
  simp only [List.flatten_cons, List.flatten_nil, List.append_nil, hostOps1, List.mem_cons, List.mem_nil_iff, or_false] at hop
  subst hop
  rw [StableHlo.reshape_writes, Finset.mem_singleton]
  exact StableHlo.devRef_ne_of_ne (by decide)
theorem after_tailVal_v1 (c : Dev nD) (x : Buf (Elt F) ((c.tc : Thread nD τ).loc main_v0)) :
    StableHlo.after ([hostOps1] : List (List (HloOp τ sig (Elt F)))).flatten (tailVal m c x) (Proc.devRef .tc main_v1) = resultOf c x := by
  show (StableHlo.reshape main_v0 main_v1 rfl shapeCasts_S1x1_S_ : HloOp τ sig (Elt F)).result (tailVal m c x) (Proc.devRef .tc main_v1) = resultOf c x
  rw [StableHlo.reshape_result, tailVal_v0]
  rfl

/-- The line touches the result and the scalar only, -/
theorem tail_sub : ∀ ops ∈ ([hostOps1] : List (List (HloOp τ sig (Elt F)))), ∀ op ∈ ops,
    op.bufs ⊆ ({Proc.devRef .tc main_v0, Proc.devRef .tc main_v1} : Finset (DevRef τ sig)) := by
  intro ops hops op hop
  simp only [List.mem_cons, List.mem_nil_iff, or_false] at hops
  subst hops
  simp only [hostOps1, List.mem_cons, List.mem_nil_iff, or_false] at hop
  subst hop
  rw [StableHlo.reshape_bufs]
/-- and allocates nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

set_option backward.isDefEq.respectTransparency.types false in
/-- From the region's exit — the boundary, the windows' arrays at any contents `G`, the scalar as the region
    found it — the reshape runs holding the result's array (which its window holds whole) and the scalar, and
    hands back the arrays as they were and the scalar at the one element of the result. -/
theorem htail (dats : (p : Fin 1) → (c : Dev nD) → Dat τ (Elt F) Unit ℕ (UR sig nD τ) ℕ (cfgs p) c)
    (c : Dev nD) (G : (w : Fin cfg0.W) → Buf (Elt F) ((cfg0.win w).arr.view.loc (c.tc : Thread nD τ)))
    (Q' : PUnit → sProp 𝕄) :
    iprop((iprop((dats 0 c).arrays G ∗ (((c.tc : Thread nD τ).loc main_v1) ↦{fullShare} resultOf c (G 4))) -∗ Q' ⟨⟩)
        ∗ boundary (c.tc : Thread nD τ) ∗ (dats 0 c).arrays G
        ∗ Pipeline.unscopedRest (Ix := Unit) (Name := ℕ) (U := UR sig nD τ) (Lvl := ℕ) spec0 c (V m c))
      ⊢ wp frame (wpE (Pipeline.defs (fun p => (cfgs p).toPCfg (Val := Elt F)) defs₀) (Variants.lift Variants.none) (c.tc : Thread nD τ) none) Set.univ
          (Pipeline.chain [StableHlo.seq hostOps1]) Q' := by
  have key := Pipeline.wp_seqs_then (Ix := Unit) (Name := ℕ) (U := UR sig nD τ) (Lvl := ℕ) (fun p => (cfgs p).toPCfg (Val := Elt F)) defs₀ Variants.none c
    {Proc.devRef .tc main_v0, Proc.devRef .tc main_v1} [] (K := Q') [hostOps1] tail_sub tail_fresh (tailVal m c (G 4))
  rw [held_v0_v1, held_v0_v1, after_tailVal_v0, after_tailVal_v1, tailVal_v0, tailVal_v1, Pipeline.chain_nil, wp_pure] at key
  rw [arrays0_eq (dats 0 c) G, unscopedRest0_eq, share0_4 (dats 0 c)]
  iintro ⟨Hk, Hb, ⟨H0, H1, H2, H3, H4⟩, HZ⟩
  iapply key $$ [Hb H4 HZ]
  · isplitl [Hb]; · iexact Hb
    isplitl [H4]; · iexact H4
    iexact HZ
  iintro ⟨Hb, H4, HZ⟩
  imodintro
  iapply Hk
  isplitr [HZ]
  · isplitl [H0]; · iexact H0
    isplitl [H1]; · iexact H1
    isplitl [H2]; · iexact H2
    isplitl [H3]; · iexact H3
    iexact H4
  · iexact HZ

/-! ## The run -/

set_option backward.isDefEq.respectTransparency.types false in
/-- From any memory with zero counters every weakly fair execution of @main terminates; every window's array ends
    at what the library computes from the proof data, and the scalar at the one element of the result's. -/
theorem run_of_body
    (dats : (p : Fin 1) → (c : Dev nD) → Dat τ (Elt F) Unit ℕ (UR sig nD τ) ℕ (cfgs p) c)
    (hA : ∀ c w, (dats 0 c).A w = V m c (Pipeline.arrRef spec0 w))
    (hq : ∀ c w, (dats 0 c).q w = qIn w)
    (howed : ∀ c t, (dats 0 c).owed t = 0)
    (hbody : ∀ c, Pipeline.BodyObligationLoose (dats 0 c) defs₀ Variants.none () Set.univ)
    (hin : ∀ c, (Pipeline.scopedRest spec0 c : sProp 𝕄) ⊢ (dats 0 c).Φ 0)
    (hout : ∀ c, (dats 0 c).Φ (Fin.last cfg0.N) ⊢ (Pipeline.scopedRest spec0 c : sProp 𝕄)) :
    θ_run defs (onTc (τ := τ) (main (F := F))) (s₀ m ρ) (fun r => ∀ c : Dev nD,
      (∀ w, r.2.mem (((cfgs 0).spec w).arr.view.loc (c.tc : Thread nD τ)) = (dats 0 c).arrAt w (cfgs 0).N)
      ∧ r.2.mem ((c.tc : Thread nD τ).loc main_v1) = resultOf c ((dats 0 c).arrAt 4 (cfgs 0).N)) := by
  classical
  exact Pipeline.θ_run_region_noSem_pf_tail (fun p => (cfgs p).toPCfg) (fun p => (cfgs p).toPCfg_adm) dats () cellOf_inj 0
    winFacts₀0 (Pipeline.PreFacts.none _) emb₁ defs₀ Variants.none
    m ρ main (fun _ => Pipeline.chain [StableHlo.seq hostOps1]) hbody block_pos0 arr_whole0 stage_whole0 howed
    (u₀ := initOf (Pipeline.cells cfgs cellOf_inj) (Pipeline.launchToks cfgs cellOf_inj)) (hu₀ := .rfl)
    (V := V m) (hmain := hmain m Variants.none) (hsplit := hsplit m dats hA hq) (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := fun c => (((c.tc : Thread nD τ).loc main_v1) ↦{fullShare} resultOf c ((dats 0 c).arrAt 4 (cfgs 0).N) : sProp 𝕄))
    (hX := fun c => by
      rw [Pipeline.unscopedRestP_none]
      iintro H
      isplitr
      · iempintro
      · iexact H)
    (hin := fun c => (show _ ⊢ (Pipeline.scopedRest spec0 c : sProp 𝕄) from by iintro ⟨-, -, H⟩; iexact H).trans (hin c))
    (hout := fun c => (hout c).trans (by
      iintro H
      isplitr
      · iempintro
      · iexact H))
    (htail := fun c Q' => htail m dats c _ Q')
    (QY := fun c s => s.mem ((c.tc : Thread nD τ).loc main_v1) = resultOf c ((dats 0 c).arrAt 4 (cfgs 0).N))
    (hY := fun c s' => by
      iintro ⟨-, HZ, HSI⟩
      imodintro
      ihave H := (pointsTo_read_all ({()} : Finset Unit) (fun _ => (c.tc : Thread nD τ).loc main_v1)
        (fun _ => resultOf c ((dats 0 c).arrAt 4 (cfgs 0).N)) s') $$ [HZ HSI]
      · rw [bigSep_singleton]
        isplitl [HZ] <;> iassumption
      icases H with ⟨%h, HSI⟩
      isplitr
      · ipureintro; exact h () (Finset.mem_singleton_self _)
      · iexact HSI)
    (hQ := fun s h c => ⟨(h c).1, (h c).2.2⟩)

/-! ## The frame -/

/-- The argument arrays end as they began: each is read through two input windows, whose arrays are never
    written. -/
theorem frame_of
    (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (fun r => ∀ c : Dev nD,
      (∀ w, r.2.mem (((cfgs 0).spec w).arr.view.loc (c.tc : Thread nD τ)) = (dats 0 c).arrAt w (cfgs 0).N)
      ∧ r.2.mem ((c.tc : Thread nD τ).loc main_v1) = resultOf c ((dats 0 c).arrAt 4 (cfgs 0).N))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).1 1).trans (((dats 0 c).arrAt_in 1 rfl _).trans ((hA c 1).trans (V_main_arg1 m c)))⟩) h

end Cert.KernelIdeal.Gen

end
-- ==== Proof.Frame.lean ====
/-
  The run of the whole program and its frame: the region on the 8 x 8 grid, then the reshape of the result.

  The body obligation at every tile, the two ends of the accumulator's invariant and the split of the two argument
  arrays between the windows that share them give the run; every array then holds what the write-backs left, the
  argument arrays what they held at launch.
-/
import proofs.«174177_j38474317038467_2_alg».proof.Proof.Body
import proofs.«174177_j38474317038467_2_alg».proof.Proof.Launch

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Every weakly fair execution of the program terminates; each window's array ends at what the write-backs left
    and the scalar result at the reshape of the 1 x 1 result array. -/
theorem run_main : θ_run defs (onTc (τ := τ) (main (F := F))) (s₀ m ρ) (fun r => ∀ c : Dev nD,
      (∀ w, r.2.mem (((cfgs 0).spec w).arr.view.loc (c.tc : Thread nD τ)) = (dats m 0 c).arrAt w (cfgs 0).N)
      ∧ r.2.mem ((c.tc : Thread nD τ).loc main_v1) = resultOf c ((dats m 0 c).arrAt 4 (cfgs 0).N)) :=
  run_of_body m ρ (dats m) (A_eq m) (q_eq m) (owed_eq m) (fun c => (body_obligation m c).loose) (hin m) (hout m)

/-- The frame: the program runs and the two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Gen

end
-- ==== Proof.BodyValue.lean ====
/-
  What the accumulator and the result of the pairwise-divergence kernel hold, in closed form.

  Each of the three runs of the body leaves in the accumulator the value its accumulate store wrote: what the
  accumulator held when that store read it (zero at the first tile, where the reset store has just written it;
  otherwise what the tile before left) plus the tile's masked sum; the last tile's run leaves in the result's
  buffer that accumulator / 256. Tile by tile this is the recursion "zero, then one masked tile sum per tile".
-/
import proofs.«174177_j38474317038467_2_alg».proof.Proof.Body
import Idealize.ShloMosaic.Lib.Pipeline.Value

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stored values -/

theorem hz : (![0, 0] : Fin 2 → Nat) = fun _ => 0 := funext fun a => by fin_cases a <;> rfl

/-- A middle tile leaves in the accumulator what it held plus the tile's masked sum. -/
theorem sout0_B_0_eq (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : ¬cond0_1 i)
    (x0 x1 x2 x3 : Vec F S32x512 .f32) (xs0 : Vec F S1x1 .f32) :
    sout0_B_0 c i arg2 harg2 arg3 harg3 arg4 harg4 arg5 harg5 arg6 harg6 arg7 harg7 hc0 hc1 x0 x1 x2 x3 xs0
      = k0_pay1 (BitVec.ofNat 32 (i 1).val) (k0_pay4 x0 x1 x2 x3) (iota .tc S32x32 32 [0] iota_S32x32_d0_w32) (k0_pay5 i) xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S1x1) hz]
  simp only [View.readAt_eq_ld, harg2.read_unread, harg3.read_unread, harg4.read_unread, harg5.read_unread, harg7.read_unread,
    View.ld_unit_zero (S := S32x512) hz, View.ld_unit_zero (S := S1x1) hz]

/-- The first tile leaves in the accumulator zero plus the tile's masked sum: the accumulate store reads the
    zero the reset store wrote. -/
theorem sout0_A_0_eq (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : cond0_0 i) (hc1 : ¬cond0_1 i)
    (x0 x1 x2 x3 : Vec F S32x512 .f32) :
    sout0_A_0 c i arg2 harg2 arg3 harg3 arg4 harg4 arg5 harg5 arg6 harg6 arg7 harg7 hc0 hc1 x0 x1 x2 x3
      = k0_pay1 (BitVec.ofNat 32 (i 1).val) (k0_pay4 x0 x1 x2 x3) (iota .tc S32x32 32 [0] iota_S32x32_d0_w32) (k0_pay5 i) (k0_pay3 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1x1) hz, View.readCov_unit_zero (S := S1x1) _ hz]
  simp only [View.readAt_eq_ld, harg2.read_unread, harg3.read_unread, harg4.read_unread, harg5.read_unread,
    View.ld_unit_zero (S := S32x512) hz]

/-- The last tile leaves in the accumulator what it held plus the tile's masked sum. -/
theorem sout0_C_0_eq (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) :
    sout0_C_0 c i arg2 harg2 arg3 harg3 arg4 harg4 arg5 harg5 arg6 harg6 arg7 harg7 hc0 hc1 x0 x1 x2 x3 xs0
      = k0_pay1 (BitVec.ofNat 32 (i 1).val) (k0_pay4 x0 x1 x2 x3) (iota .tc S32x32 32 [0] iota_S32x32_d0_w32) (k0_pay5 i) xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x1) hz]
  simp only [View.readAt_eq_ld, harg2.read_unread, harg3.read_unread, harg4.read_unread, harg5.read_unread, harg7.read_unread,
    View.ld_unit_zero (S := S32x512) hz, View.ld_unit_zero (S := S1x1) hz]

/-- And in the result's buffer that accumulator / 256: the result's store reads the accumulator the accumulate
    store has just written. -/
theorem out0_C_4_eq (c : Dev nD) (i : grid0.Coords) (arg2 : Memref sig .tc .vmem S32x512 .f32) (harg2 : arg2.IsWhole) (arg3 : Memref sig .tc .vmem S32x512 .f32) (harg3 : arg3.IsWhole) (arg4 : Memref sig .tc .vmem S32x512 .f32) (harg4 : arg4.IsWhole) (arg5 : Memref sig .tc .vmem S32x512 .f32) (harg5 : arg5.IsWhole) (arg6 : Memref sig .tc .vmem S1x1 .f32) (harg6 : arg6.IsWhole) (arg7 : Memref sig .tc .vmem S1x1 .f32) (harg7 : arg7.IsWhole) (hc0 : ¬cond0_0 i) (hc1 : cond0_1 i)
    (x0 x1 x2 x3 : Vec F S32x512 .f32) (xs0 : Vec F S1x1 .f32) :
    out0_C_4 c i arg2 harg2 arg3 harg3 arg4 harg4 arg5 harg5 arg6 harg6 arg7 harg7 hc0 hc1 x0 x1 x2 x3 xs0 = k0_pay2 (sout0_C_0 c i arg2 harg2 arg3 harg3 arg4 harg4 arg5 harg5 arg6 harg6 arg7 harg7 hc0 hc1 x0 x1 x2 x3 xs0) := by
  unfold out0_C_4 sout0_C_0
  rw [View.read_writes_eq_canon _ _ _ (cover0_C_4 c i arg2 harg2 arg3 harg3 arg4 harg4 arg5 harg5 arg6 harg6 arg7 harg7 hc0 hc1 x0 x1 x2 x3 xs0),
    View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S1x1) hz, View.canon_unit_zero (S := S1x1) hz, View.readCov_unit_zero (S := S1x1) _ hz]

/-! ## The accumulator and the result in closed form -/

/-- After tile `n` the accumulator holds the recursion's value: zero, then one masked tile sum added per tile. -/
theorem scratch_eq (c : Dev nD) (n : ℕ) (h : n < cfg0.N) : (outsAt0 m c n h).2 = accAt m c (n + 1) h := by
  induction n with
  | zero =>
    refine (congrArg Prod.snd (outsAt0_A m c ⟨0, h⟩ rfl (fun h' : (0 : ℕ) = 63 => by omega))).trans ?_
    refine (sout0_A_0_eq c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _) ((hcond0_0 ⟨0, h⟩).mpr rfl) (fun h'' => (fun h' : (0 : ℕ) = 63 => by omega) ((hcond0_1 ⟨0, h⟩).mp h'')) (iblk m c 0 ⟨0, h⟩) (iblk m c 1 ⟨0, h⟩) (iblk m c 2 ⟨0, h⟩) (iblk m c 3 ⟨0, h⟩)).trans ?_
    rw [accAt_succ m c 0 h, accAt_zero]
    rfl
  | succ n ih =>
    have ih' := ih (Nat.lt_of_succ_lt h)
    rw [accAt_succ m c (n + 1) h]
    by_cases h1 : n + 1 = 63
    · refine (congrArg Prod.snd (outsAt0_C m c ⟨n + 1, h⟩ (Nat.succ_ne_zero n) h1)).trans ?_
      refine (sout0_C_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => (Nat.succ_ne_zero n) ((hcond0_0 ⟨n + 1, h⟩).mp h')) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c ((⟨n + 1, h⟩ : Fin cfg0.N).val - 1) (Nat.lt_of_le_of_lt (Nat.sub_le _ _) (⟨n + 1, h⟩ : Fin cfg0.N).isLt)).2).trans ?_
      exact congrArg (k0_pay1 (BitVec.ofNat 32 ((grid0.coords ⟨n + 1, h⟩) 1).val) (k0_pay4 (iblk m c 0 ⟨n + 1, h⟩) (iblk m c 1 ⟨n + 1, h⟩) (iblk m c 2 ⟨n + 1, h⟩) (iblk m c 3 ⟨n + 1, h⟩)) (iota .tc S32x32 32 [0] iota_S32x32_d0_w32) (k0_pay5 (grid0.coords ⟨n + 1, h⟩))) ih'
    · refine (congrArg Prod.snd (outsAt0_B m c ⟨n + 1, h⟩ (Nat.succ_ne_zero n) h1)).trans ?_
      refine (sout0_B_0_eq c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun h' => (Nat.succ_ne_zero n) ((hcond0_0 ⟨n + 1, h⟩).mp h')) (fun h' => h1 ((hcond0_1 ⟨n + 1, h⟩).mp h')) (iblk m c 0 ⟨n + 1, h⟩) (iblk m c 1 ⟨n + 1, h⟩) (iblk m c 2 ⟨n + 1, h⟩) (iblk m c 3 ⟨n + 1, h⟩) (outsAt0 m c ((⟨n + 1, h⟩ : Fin cfg0.N).val - 1) (Nat.lt_of_le_of_lt (Nat.sub_le _ _) (⟨n + 1, h⟩ : Fin cfg0.N).isLt)).2).trans ?_
      exact congrArg (k0_pay1 (BitVec.ofNat 32 ((grid0.coords ⟨n + 1, h⟩) 1).val) (k0_pay4 (iblk m c 0 ⟨n + 1, h⟩) (iblk m c 1 ⟨n + 1, h⟩) (iblk m c 2 ⟨n + 1, h⟩) (iblk m c 3 ⟨n + 1, h⟩)) (iota .tc S32x32 32 [0] iota_S32x32_d0_w32) (k0_pay5 (grid0.coords ⟨n + 1, h⟩))) ih'

/-- At the last tile the result's buffer holds the final accumulator / 256. -/
theorem result_eq (c : Dev nD) (h : 63 < cfg0.N) : (outsAt0 m c 63 h).1 = k0_pay2 (accAt m c 64 h) := by
  have e := outsAt0_C m c ⟨63, h⟩ (fun h' : (63 : ℕ) = 0 => by omega) rfl
  refine (congrArg Prod.fst e).trans ?_
  refine (out0_C_4_eq c (grid0.coords ⟨63, h⟩) (ms0_0 ⟨63, h⟩) (hs0_0 ⟨63, h⟩) (ms0_1 ⟨63, h⟩) (hs0_1 ⟨63, h⟩) (ms0_2 ⟨63, h⟩) (hs0_2 ⟨63, h⟩) (ms0_3 ⟨63, h⟩) (hs0_3 ⟨63, h⟩) (ms0_4 ⟨63, h⟩) (hs0_4 ⟨63, h⟩) scM0_0 (Memref.isWhole_whole _) (fun h'' => (fun h' : (63 : ℕ) = 0 => by omega) ((hcond0_0 ⟨63, h⟩).mp h'')) ((hcond0_1 ⟨63, h⟩).mpr rfl) (iblk m c 0 ⟨63, h⟩) (iblk m c 1 ⟨63, h⟩) (iblk m c 2 ⟨63, h⟩) (iblk m c 3 ⟨63, h⟩) (outsAt0 m c ((⟨63, h⟩ : Fin cfg0.N).val - 1) (Nat.lt_of_le_of_lt (Nat.sub_le _ _) (⟨63, h⟩ : Fin cfg0.N).isLt)).2).trans ?_
  exact congrArg k0_pay2 ((congrArg Prod.snd e).symm.trans (scratch_eq m c 63 h))

end Cert.KernelIdeal.Gen

end
-- ==== Proof.BlockRead.lean ====
/-
  What the four input blocks of a tile hold: rows of the two argument arrays.

  Tile t of the 8 x 8 grid has row-tile index t / 8 and column-tile index t % 8. Windows 0 and 1 hand the body rows
  32 (t / 8) .. 32 (t / 8) + 31 of the means and of the log-variances; windows 2 and 3 hand it rows
  32 (t % 8) .. 32 (t % 8) + 31 of the same two arrays. An element (a, d) of a block is the array's element at the
  block's first row plus a, coordinate d.
-/
import proofs.«174177_j38474317038467_2_alg».proof.Proof.Kit
import Idealize.ShloMosaic.Lib.ValueIdx
import Idealize.ShloMosaic.Lib.Pipeline.Value

noncomputable section

namespace Cert.KernelIdeal.KVal

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The grid coordinates of tile t and the block indices of the four input windows there, decided over the grid. -/
theorem tile_facts : ∀ t : Fin cfg0.N, ((grid0.coords t) 0).val = t.val / 8 ∧ ((grid0.coords t) 1).val = t.val % 8
    ∧ win0_0.index t (0 : Fin 2) = t.val / 8 ∧ win0_0.index t (1 : Fin 2) = 0
    ∧ win0_1.index t (0 : Fin 2) = t.val / 8 ∧ win0_1.index t (1 : Fin 2) = 0
    ∧ win0_2.index t (0 : Fin 2) = t.val % 8 ∧ win0_2.index t (1 : Fin 2) = 0
    ∧ win0_3.index t (0 : Fin 2) = t.val % 8 ∧ win0_3.index t (1 : Fin 2) = 0 :=
  (by decide +kernel : ∀ t : Fin grid0.N, _)

/-- Window 0's block: rows of the means, from row 32 (t / 8). -/
theorem iblk0_apply (c : Dev nD) (t : Fin cfg0.N) (a : Fin 32) (d : Fin 512) (r : Fin 256)
    (hr : r.val = (t.val / 8) * 32 + a.val) :
    (iblk m c 0 t : Vec F S32x512 .f32) (ix2 a d) = m ((c : Thread nD τ).loc main_arg0) (ix2 r d) := by
  show V m c main_arg0 (((cfg0.win 0).blk t).view.emb (ix2 a d)) = _
  rw [V_main_arg0]
  refine congrArg _ (funext fun ax => Fin.ext ?_)
  obtain ⟨-, -, e0, e1, -⟩ := tile_facts t
  match ax with
  | ⟨0, _⟩ => show win0_0.index t (0 : Fin 2) * 32 + 1 * a.val = r.val; omega
  | ⟨1, _⟩ => show win0_0.index t (1 : Fin 2) * 512 + 1 * d.val = d.val; omega

/-- Window 1's block: rows of the log-variances, from row 32 (t / 8). -/
theorem iblk1_apply (c : Dev nD) (t : Fin cfg0.N) (a : Fin 32) (d : Fin 512) (r : Fin 256)
    (hr : r.val = (t.val / 8) * 32 + a.val) :
    (iblk m c 1 t : Vec F S32x512 .f32) (ix2 a d) = m ((c : Thread nD τ).loc main_arg1) (ix2 r d) := by
  show V m c main_arg1 (((cfg0.win 1).blk t).view.emb (ix2 a d)) = _
  rw [V_main_arg1]
  refine congrArg _ (funext fun ax => Fin.ext ?_)
  obtain ⟨-, -, -, -, e0, e1, -⟩ := tile_facts t
  match ax with
  | ⟨0, _⟩ => show win0_1.index t (0 : Fin 2) * 32 + 1 * a.val = r.val; omega
  | ⟨1, _⟩ => show win0_1.index t (1 : Fin 2) * 512 + 1 * d.val = d.val; omega

/-- Window 2's block: rows of the means, from row 32 (t % 8). -/
theorem iblk2_apply (c : Dev nD) (t : Fin cfg0.N) (b : Fin 32) (d : Fin 512) (r : Fin 256)
    (hr : r.val = (t.val % 8) * 32 + b.val) :
    (iblk m c 2 t : Vec F S32x512 .f32) (ix2 b d) = m ((c : Thread nD τ).loc main_arg0) (ix2 r d) := by
  show V m c main_arg0 (((cfg0.win 2).blk t).view.emb (ix2 b d)) = _
  rw [V_main_arg0]
  refine congrArg _ (funext fun ax => Fin.ext ?_)
  obtain ⟨-, -, -, -, -, -, e0, e1, -⟩ := tile_facts t
  match ax with
  | ⟨0, _⟩ => show win0_2.index t (0 : Fin 2) * 32 + 1 * b.val = r.val; omega
  | ⟨1, _⟩ => show win0_2.index t (1 : Fin 2) * 512 + 1 * d.val = d.val; omega

/-- Window 3's block: rows of the log-variances, from row 32 (t % 8). -/
theorem iblk3_apply (c : Dev nD) (t : Fin cfg0.N) (b : Fin 32) (d : Fin 512) (r : Fin 256)
    (hr : r.val = (t.val % 8) * 32 + b.val) :
    (iblk m c 3 t : Vec F S32x512 .f32) (ix2 b d) = m ((c : Thread nD τ).loc main_arg1) (ix2 r d) := by
  show V m c main_arg1 (((cfg0.win 3).blk t).view.emb (ix2 b d)) = _
  rw [V_main_arg1]
  refine congrArg _ (funext fun ax => Fin.ext ?_)
  obtain ⟨-, -, -, -, -, -, -, -, e0, e1⟩ := tile_facts t
  match ax with
  | ⟨0, _⟩ => show win0_3.index t (0 : Fin 2) * 32 + 1 * b.val = r.val; omega
  | ⟨1, _⟩ => show win0_3.index t (1 : Fin 2) * 512 + 1 * d.val = d.val; omega

end Cert.KernelIdeal.KVal

end
-- ==== Proof.Spec.lean ====
/-
  The quantity both programs compute, as one function of the two argument matrices.

  For 256 rows of means `mu` and log-variances `lv` over 512 coordinates, the divergence of row `i` from row `j`
  is half the sum over the coordinates of
      lv j - lv i + e^(lv i) · e^(-lv j) + (mu i - mu j)² · e^(-lv j) - 1,
  and the result is the sum of the divergences over all ordered pairs of DIFFERENT rows, divided by 256. The
  literals 1/2, 1 and 256 are kept as the words both programs print; only the zero word is evaluated.
-/
import Idealize.ShloMosaic.PureOps.Ideal
import Idealize.ShloMosaic.Lib.ValueIdx

noncomputable section

namespace Cert.PairDiv

open Idealize.ShloMosaic

/-- The word of 1/2. -/
abbrev half : EReal := Ideal.ofBits .f32 0x3F000000#32
/-- The word of 1. -/
abbrev one : EReal := Ideal.ofBits .f32 0x3F800000#32
/-- The word of 256. -/
abbrev c256 : EReal := Ideal.ofBits .f32 0x43800000#32

/-- A 256 x 512 array read by row and coordinate. -/
abbrev mat (x : (⟨2, ![256, 512]⟩ : Shape).Idx → EReal) (i : Fin 256) (d : Fin 512) : EReal := x (ValueIdx.ix2 i d)

/-- One coordinate's term of the divergence of row `i` from row `j`. -/
def term (mu lv : Fin 256 → Fin 512 → EReal) (i j : Fin 256) (d : Fin 512) : EReal :=
  (((lv j d - lv i d) + Ideal.exp (lv i d) * Ideal.exp (0 - lv j d))
    + ((mu i d - mu j d) * (mu i d - mu j d)) * Ideal.exp (0 - lv j d)) - one

/-- The divergence of row `i` from row `j`. -/
def div (mu lv : Fin 256 → Fin 512 → EReal) (i j : Fin 256) : EReal :=
  half * (0 + ∑ d : Fin 512, term mu lv i j d)

/-- One off the diagonal, zero on it. -/
def offDiag (i j : Fin 256) : EReal := if i = j then 0 else 1

/-- The sum over all ordered pairs of different rows. -/
def total (mu lv : Fin 256 → Fin 512 → EReal) : EReal :=
  ∑ i : Fin 256, ∑ j : Fin 256, div mu lv i j * offDiag i j

/-- The result: the total over the number of rows. -/
def G (mu lv : Fin 256 → Fin 512 → EReal) : EReal := Ideal.div (total mu lv) c256

end Cert.PairDiv

end
-- ==== Proof.LibRankThreeForms.lean ====
/-
  Layout operations on rank-3 arrays read at an index given by coordinates: a middle or trailing unit axis added,
  dropped or broadcast, the two leading axes merged into one or split again, and a slice along the last axis.
  Each is the general reading of a shape cast (equal row-major positions), a broadcast (the unit axis reads
  coordinate 0) or a slice (the offset is added) specialised to indices written by their coordinates.
-/
import Idealize.ShloMosaic.Lib.ValueIdx
import Idealize.ShloMosaic.Lib.Pipeline.Value

namespace Idealize.ShloMosaic.ValueIdx

open Idealize.ShloMosaic

variable {α : Type}

/-- Splitting the leading axis of an [a·b, c] array into [a, b, c]: entry (r, n, k) is entry (r·b + n, k). -/
theorem shapeCast_pc_abc_apply {a b c ab : ℕ} (x : (⟨2, ![ab, c]⟩ : Shape).Idx → α)
    (h : (⟨2, ![ab, c]⟩ : Shape).ShapeCasts ⟨3, ![a, b, c]⟩) (r : Fin a) (n : Fin b) (k : Fin c) (p : Fin ab)
    (hp : p.val = r.val * b + n.val) : shapeCast ⟨3, ![a, b, c]⟩ x h (ix3 r n k) = x (ix2 p k) :=
  shapeCast_apply x h _ _ (by
    rw [Shape.rowMajor_val_three, Shape.rowMajor_val_two]
    show p.val * c + k.val = (r.val * b + n.val) * c + k.val
    rw [hp])

/-- Merging the two leading axes of an [a, b, c] array into [a·b, c]: entry (r·b + n, k) is entry (r, n, k). -/
theorem shapeCast_abc_pc_apply {a b c ab : ℕ} (x : (⟨3, ![a, b, c]⟩ : Shape).Idx → α)
    (h : (⟨3, ![a, b, c]⟩ : Shape).ShapeCasts ⟨2, ![ab, c]⟩) (r : Fin a) (n : Fin b) (k : Fin c) (p : Fin ab)
    (hp : p.val = r.val * b + n.val) : shapeCast ⟨2, ![ab, c]⟩ x h (ix2 p k) = x (ix3 r n k) :=
  shapeCast_apply x h _ _ (by
    rw [Shape.rowMajor_val_three, Shape.rowMajor_val_two]
    show (r.val * b + n.val) * c + k.val = p.val * c + k.val
    rw [hp])

/-- A unit axis put in the middle of an [a, c] array: entry (r, u, k) of the [a, 1, c] array is entry (r, k). -/
theorem shapeCast_ac_a1c_apply {a c : ℕ} (x : (⟨2, ![a, c]⟩ : Shape).Idx → α)
    (h : (⟨2, ![a, c]⟩ : Shape).ShapeCasts ⟨3, ![a, 1, c]⟩) (r : Fin a) (u : Fin 1) (k : Fin c) :
    shapeCast ⟨3, ![a, 1, c]⟩ x h (ix3 r u k) = x (ix2 r k) :=
  shapeCast_apply x h _ _ (by
    have hu : u.val = 0 := by omega
    rw [Shape.rowMajor_val_three, Shape.rowMajor_val_two]
    show r.val * c + k.val = (r.val * 1 + u.val) * c + k.val
    rw [hu, Nat.mul_one, Nat.add_zero])

/-- A middle unit axis broadcast to length b: entry (r, n, k) reads entry (r, 0, k). -/
theorem broadcastTo_a1c_abc_apply {a b c : ℕ} (x : (⟨3, ![a, 1, c]⟩ : Shape).Idx → α)
    (h : (⟨3, ![a, 1, c]⟩ : Shape).Broadcasts ⟨3, ![a, b, c]⟩) (r : Fin a) (n : Fin b) (k : Fin c) :
    broadcastTo ⟨3, ![a, b, c]⟩ x h (ix3 r n k) = x (ix3 r (0 : Fin 1) k) := by
  refine broadcastTo_apply x h (ix3 r n k) (ix3 r (0 : Fin 1) k) fun ax => ?_
  match ax with
  | ⟨0, _⟩ =>
    show r.val = if a = 1 then 0 else r.val
    split
    · omega
    · rfl
  | ⟨1, _⟩ => rfl
  | ⟨2, _⟩ =>
    show k.val = if c = 1 then 0 else k.val
    split
    · omega
    · rfl

/-- A trailing unit axis dropped: entry (r, n) of the [a, b] array is entry (r, n, 0) of the [a, b, 1] one. -/
theorem shapeCast_ab1_ab_apply {a b : ℕ} (x : (⟨3, ![a, b, 1]⟩ : Shape).Idx → α)
    (h : (⟨3, ![a, b, 1]⟩ : Shape).ShapeCasts ⟨2, ![a, b]⟩) (r : Fin a) (n : Fin b) :
    shapeCast ⟨2, ![a, b]⟩ x h (ix2 r n) = x (ix3 r n (0 : Fin 1)) :=
  shapeCast_apply x h _ _ (by
    rw [Shape.rowMajor_val_three, Shape.rowMajor_val_two]
    show (r.val * b + n.val) * 1 + 0 = r.val * b + n.val
    rw [Nat.mul_one, Nat.add_zero])

/-- A trailing unit axis added: entry (r, n, u) of the [a, b, 1] array is entry (r, n) of the [a, b] one. -/
theorem shapeCast_ab_ab1_apply {a b : ℕ} (x : (⟨2, ![a, b]⟩ : Shape).Idx → α)
    (h : (⟨2, ![a, b]⟩ : Shape).ShapeCasts ⟨3, ![a, b, 1]⟩) (r : Fin a) (n : Fin b) (u : Fin 1) :
    shapeCast ⟨3, ![a, b, 1]⟩ x h (ix3 r n u) = x (ix2 r n) :=
  shapeCast_apply x h _ _ (by
    have hu : u.val = 0 := by omega
    rw [Shape.rowMajor_val_three, Shape.rowMajor_val_two]
    show r.val * b + n.val = (r.val * b + n.val) * 1 + u.val
    rw [hu, Nat.mul_one, Nat.add_zero])

/-- A trailing unit axis broadcast to length c: entry (r, n, k) reads entry (r, n, 0). -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (n : Fin b) (k : Fin c) :
    broadcastTo ⟨3, ![a, b, c]⟩ x h (ix3 r n k) = x (ix3 r n (0 : Fin 1)) := by
  refine broadcastTo_apply x h (ix3 r n k) (ix3 r n (0 : Fin 1)) fun ax => ?_
  match ax with
  | ⟨0, _⟩ =>
    show r.val = if a = 1 then 0 else r.val
    split
    · omega
    · rfl
  | ⟨1, _⟩ =>
    show n.val = if b = 1 then 0 else n.val
    split
    · omega
    · rfl
  | ⟨2, _⟩ => rfl

/-- A rank-3 array cut along its last axis from `o` reads, at (r, n, j), the source at (r, n, k) with k = o + j. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (r : Fin n0) (n : Fin n1) (j : Fin m) (k : Fin n2) (hk : k.val = o + j.val) :
    extractStridedSlice ⟨3, ![n0, n1, m]⟩ ![0, 0, o] X h (ix3 r n j) = X (ix3 r n k) :=
  extractStridedSlice_apply _ _ _ _ _ (fun ax => by
    match ax with
    | ⟨0, _⟩ => exact (Nat.zero_add _).symm
    | ⟨1, _⟩ => exact (Nat.zero_add _).symm
    | ⟨2, _⟩ => exact hk)

end Idealize.ShloMosaic.ValueIdx
-- ==== Proof.LibRankThreeLeadingForms.lean ====
/-
  Layout operations on rank-3 arrays whose LEADING axes are units, read at an index given by coordinates: one
  [b, c] slab broadcast over a new leading axis, a vector placed on the last axis of a [1, 1, c] array, and that array
  broadcast over both leading axes; and a MIDDLE unit axis dropped by a shape cast. A broadcast reads coordinate 0 on
  every unit axis of its operand; a shape cast keeps the row-major position.
-/
import Idealize.ShloMosaic.Lib.ValueIdx
import Idealize.ShloMosaic.Lib.Pipeline.Value

namespace Idealize.ShloMosaic.ValueIdx

open Idealize.ShloMosaic

variable {α : Type}

/-- A leading unit axis broadcast to length a: entry (r, n, k) reads entry (0, n, k). -/
theorem broadcastTo_1bc_abc_apply {a b c : ℕ} (x : (⟨3, ![1, b, c]⟩ : Shape).Idx → α)
    (h : (⟨3, ![1, b, c]⟩ : Shape).Broadcasts ⟨3, ![a, b, c]⟩) (r : Fin a) (n : Fin b) (k : Fin c) :
    broadcastTo ⟨3, ![a, b, c]⟩ x h (ix3 r n k) = x (ix3 (0 : Fin 1) n k) := by
  refine broadcastTo_apply x h (ix3 r n k) (ix3 (0 : Fin 1) n k) fun ax => ?_
  match ax with
  | ⟨0, _⟩ => rfl
  | ⟨1, _⟩ =>
    show n.val = if b = 1 then 0 else n.val
    split
    · omega
    · rfl
  | ⟨2, _⟩ =>
    show k.val = if c = 1 then 0 else k.val
    split
    · omega
    · rfl

/-- A vector placed on the last axis of a [1, 1, c] array: entry (u, v, k) is entry k. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    simp)

/-- Both leading unit axes broadcast: entry (r, n, k) reads entry (0, 0, k). -/
theorem broadcastTo_11c_abc_apply {a b c : ℕ} (x : (⟨3, ![1, 1, c]⟩ : Shape).Idx → α)
    (h : (⟨3, ![1, 1, c]⟩ : Shape).Broadcasts ⟨3, ![a, b, c]⟩) (r : Fin a) (n : Fin b) (k : Fin c) :
    broadcastTo ⟨3, ![a, b, c]⟩ x h (ix3 r n k) = x (ix3 (0 : Fin 1) (0 : Fin 1) k) := by
  refine broadcastTo_apply x h (ix3 r n k) (ix3 (0 : Fin 1) (0 : Fin 1) k) fun ax => ?_
  match ax with
  | ⟨0, _⟩ => rfl
  | ⟨1, _⟩ => rfl
  | ⟨2, _⟩ =>
    show k.val = if c = 1 then 0 else k.val
    split
    · omega
    · rfl

/-- A middle unit axis dropped: entry (r, k) of the [a, c] array is entry (r, 0, k) of the [a, 1, c] one. -/
theorem shapeCast_a1c_ac_apply {a c : ℕ} (x : (⟨3, ![a, 1, c]⟩ : Shape).Idx → α)
    (h : (⟨3, ![a, 1, c]⟩ : Shape).ShapeCasts ⟨2, ![a, c]⟩) (r : Fin a) (k : Fin c) :
    shapeCast ⟨2, ![a, c]⟩ x h (ix2 r k) = x (ix3 r (0 : Fin 1) k) :=
  shapeCast_apply x h _ _ (by
    rw [Shape.rowMajor_val_three, Shape.rowMajor_val_two]
    show (r.val * 1 + 0) * c + k.val = r.val * c + k.val
    rw [Nat.mul_one, Nat.add_zero])

end Idealize.ShloMosaic.ValueIdx
-- ==== Proof.PayKl.lean ====
/-
  The tile's matrix of divergences, read entry by entry.

  For the blocks x0, x1 (means and log-variances of the tile's 32 rows i) and x2, x3 (those of its 32 rows j) the
  body forms, over a 32 x 32 x 512 box of (row a, row b, coordinate d), the term
      x3 b d - x1 a d + e^(x1 a d) · e^(0 - x3 b d) + (x0 a d - x2 b d)² · e^(0 - x3 b d) - 1,
  sums it over d and halves it. Each operand of the box is a block with a unit axis put in (middle for the rows a,
  leading for the rows b) and broadcast along it, so at (a, b, d) it reads the block at (a, d) or at (b, d).
-/
import proofs.«174177_j38474317038467_2_alg».proof.Proof.Gen.KernelIdeal.Skeleton
import proofs.«174177_j38474317038467_2_alg».proof.Proof.Spec
import proofs.«174177_j38474317038467_2_alg».proof.Proof.LibRankThreeForms
import proofs.«174177_j38474317038467_2_alg».proof.Proof.LibRankThreeLeadingForms
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.ValueIdx

/-- A block with a middle unit axis put in and broadcast along it reads, at (a, b, d), the block at (a, d). -/
theorem rowsA_apply (x : FVec Ideal S32x512 .f32) (h1 : S32x512.ShapeCasts S32x1x512) (h2 : S32x1x512.Broadcasts S32x32x512)
    (a b : Fin 32) (d : Fin 512) :
    broadcastTo S32x32x512 (shapeCast S32x1x512 x h1) h2 (ix3 a b d) = x (ix2 a d) :=
  (broadcastTo_a1c_abc_apply (a := 32) (b := 32) (c := 512) _ h2 a b d).trans
    (shapeCast_ac_a1c_apply (a := 32) (c := 512) x h1 a (0 : Fin 1) d)

/-- A block with a leading unit axis put in and broadcast along it reads, at (a, b, d), the block at (b, d). -/
theorem rowsB_apply (x : FVec Ideal S32x512 .f32) (h1 : S32x512.ShapeCasts S1x32x512) (h2 : S1x32x512.Broadcasts S32x32x512)
    (a b : Fin 32) (d : Fin 512) :
    broadcastTo S32x32x512 (shapeCast S1x32x512 x h1) h2 (ix3 a b d) = x (ix2 b d) :=
  (broadcastTo_1bc_abc_apply (a := 32) (b := 32) (c := 512) _ h2 a b d).trans
    (shapeCast_ab_1ab_apply (a := 32) (b := 512) x h1 (0 : Fin 1) b d)

/-- The sum over the last axis of a 32 x 32 x 512 box, at (a, b), is the sum over d of the box at (a, b, d). -/
theorem sum_last (src : FVec Ideal S32x32x512 .f32) (h : S32x32x512.Reduces [2] S32x32) (hφ : FKind.Formats .f32)
    (hacc : (0x00000000#32 : BitVec 32) = FKind.add.neutral .f32 hφ) (a b : Fin 32) :
    multiReduction .add [2] S32x32 src 0x00000000#32 h hφ hacc (ix2 a b) = ∑ d : Fin 512, src (ix3 a b d) := by
  refine (Ideal.multiReduction_add_single src _ h hφ hacc (ix2 a b)).trans ?_
  show ∑ d : Fin 512, src (h.lift (ix2 a b) d) = _
  refine Finset.sum_congr rfl fun d _ => congrArg src ?_
  funext ax
  apply Fin.ext
  match ax with
  | ⟨0, _⟩ => rfl
  | ⟨1, _⟩ => rfl
  | ⟨2, _⟩ => rfl

/-- One coordinate's term of the tile's entry (a, b), over the four blocks. -/
def tileTerm (x0 x1 x2 x3 : FVec Ideal S32x512 .f32) (a b : Fin 32) (d : Fin 512) : EReal :=
  (((x3 (ix2 b d) - x1 (ix2 a d)) + Ideal.exp (x1 (ix2 a d)) * Ideal.exp (0 - x3 (ix2 b d)))
    + ((x0 (ix2 a d) - x2 (ix2 b d)) * (x0 (ix2 a d) - x2 (ix2 b d))) * Ideal.exp (0 - x3 (ix2 b d))) - PairDiv.one

/-- The tile's matrix at (a, b): half the sum over the coordinates of the term. -/
theorem pay4_apply (x0 x1 x2 x3 : FVec Ideal S32x512 .f32) (a b : Fin 32) :
    k0_pay4 (F := Ideal) x0 x1 x2 x3 (ix2 a b) = PairDiv.half * ∑ d : Fin 512, tileTerm x0 x1 x2 x3 a b d := by
  unfold k0_pay4
  dsimp only
  refine (mulf_apply _ _ _).trans ?_
  refine congrArg₂ (· * ·) rfl ?_
  refine (sum_last _ _ _ _ a b).trans ?_
  refine Finset.sum_congr rfl fun d _ => ?_
  unfold tileTerm
  simp only [subf_apply, addf_apply, mulf_apply, rowsA_apply, rowsB_apply]
  have hz : exp (subf (broadcast S32x512 (FloatOps.ofBits (F := Ideal) .f32 0#32)) x3) (ix2 b d) = Ideal.exp (0 - x3 (ix2 b d)) := by
    show Ideal.exp (Ideal.ofBits .f32 0x00000000#32 - x3 (ix2 b d)) = _
    rw [Ideal.ofBits_zero_f32]
  rw [hz]
  rfl

end Cert.KernelIdeal.KVal

end
-- ==== Proof.PayStep.lean ====
/-
  One tile's addition to the accumulator.

  The body multiplies the tile's 32 x 32 matrix of divergences by the mask that is 0 where the global row
  32 · i + a equals the global column 32 · j + b and 1 elsewhere, sums each row over its 32 lanes, sums the 32 row
  sums, and adds the result to the accumulator it read. Read at the one entry of the 1 x 1 accumulator this is the
  accumulator plus the double sum of the masked matrix.
-/
import proofs.«174177_j38474317038467_2_alg».proof.Proof.PayKl

noncomputable section

namespace Cert.KernelIdeal.KVal

open Cert.KernelIdeal Cert.KernelIdeal.Gen Idealize.ShloMosaic Idealize.ShloMosaic.ValueIdx

/-- The sum over the lanes of a 32 x 32 matrix, at row k. -/
theorem sum_lanes (src : FVec Ideal S32x32 .f32) (h : S32x32.Reduces [1] S32) (hφ : FKind.Formats .f32)
    (hacc : (0x00000000#32 : BitVec 32) = FKind.add.neutral .f32 hφ) (k : Fin 32) :
    multiReduction .add [1] S32 src 0x00000000#32 h hφ hacc (ix1 k) = ∑ l : Fin 32, src (ix2 k l) := by
  refine (Ideal.multiReduction_add_single src _ h hφ hacc (ix1 k)).trans ?_
  show ∑ l : Fin 32, src (h.lift (ix1 k) l) = _
  refine Finset.sum_congr rfl fun l _ => congrArg src ?_
  funext ax
  apply Fin.ext
  match ax with
  | ⟨0, _⟩ => rfl
  | ⟨1, _⟩ => rfl

/-- The sum over the rows of a 32 x 1 column. -/
theorem sum_rows (src : FVec Ideal S32x1 .f32) (h : S32x1.Reduces [0] S1) (hφ : FKind.Formats .f32)
    (hacc : (0x00000000#32 : BitVec 32) = FKind.add.neutral .f32 hφ) :
    multiReduction .add [0] S1 src 0x00000000#32 h hφ hacc (ix1 (0 : Fin 1)) = ∑ k : Fin 32, src (ix2 k (0 : Fin 1)) := by
  refine (Ideal.multiReduction_add_single src _ h hφ hacc (ix1 (0 : Fin 1))).trans ?_
  show ∑ k : Fin 32, src (h.lift (ix1 (0 : Fin 1)) k) = _
  refine Finset.sum_congr rfl fun k _ => congrArg src ?_
  funext ax
  apply Fin.ext
  match ax with
  | ⟨0, _⟩ => rfl
  | ⟨1, _⟩ => rfl

/-- A vector of 32 viewed as a 32 x 1 column reads, at (k, 0), the vector at k. -/
theorem column_apply (v : FVec Ideal S32 .f32) (h : S32.ShapeCasts S32x1) (k : Fin 32) :
    shapeCast S32x1 v h (ix2 k (0 : Fin 1)) = v (ix1 k) :=
  shapeCast_apply v h _ _ (by
    rw [Shape.rowMajor_val_two, Shape.rowMajor_val_one]
    show k.val = k.val * 1 + 0
    omega)

/-- A vector of one entry viewed as 1 x 1 reads that entry. -/
theorem single_apply (v : FVec Ideal S1 .f32) (h : S1.ShapeCasts S1x1) :
    shapeCast S1x1 v h (ix2 (0 : Fin 1) (0 : Fin 1)) = v (ix1 (0 : Fin 1)) :=
  shapeCast_apply v h _ _ (by
    rw [Shape.rowMajor_val_two, Shape.rowMajor_val_one]
    rfl)

/-- Zero where the two positions agree, one elsewhere. -/
def maskVal (p q : ℕ) : EReal := if p = q then 0 else 1

/-- The position word: tile index times 32 plus the lane. -/
theorem pos_word (p a : ℕ) :
    IntOp.addi (Scalar.muli (BitVec.ofNat 32 p) 32#32) (BitVec.ofNat 32 a) = BitVec.ofNat 32 (p * 32 + a) := by
  simp [IntOp.addi, Scalar.muli, IntOp.muli, BitVec.ofNat_add, BitVec.ofNat_mul]

/-- The comparison of two position words below 2^32, widened and read as a float, is the mask value. -/
theorem mask_word (p q : ℕ) (hp : p < 2 ^ 32) (hq : q < 2 ^ 32) :
    FloatOps.sitofp (F := Ideal) .f32 ((IntOp.cmpi .ne (BitVec.ofNat 32 p) (BitVec.ofNat 32 q)).setWidth 32) = maskVal p q := by
  unfold maskVal
  by_cases h : p = q
  · subst h
    rw [if_pos rfl]
    have : IntOp.cmpi .ne (BitVec.ofNat 32 p) (BitVec.ofNat 32 p) = 0#1 := by simp [IntOp.cmpi]
    rw [this]
    show (((BitVec.setWidth 32 (0#1)).toInt : ℝ) : EReal) = 0
    simp
  · rw [if_neg h]
    have hne : BitVec.ofNat 32 p ≠ BitVec.ofNat 32 q := fun e => h (by
      have := congrArg BitVec.toNat e
      rwa [BitVec.toNat_ofNat, BitVec.toNat_ofNat, Nat.mod_eq_of_lt hp, Nat.mod_eq_of_lt hq] at this)
    have : IntOp.cmpi .ne (BitVec.ofNat 32 p) (BitVec.ofNat 32 q) = 1#1 := by
      show BitVec.ofBool (BitVec.ofNat 32 p != BitVec.ofNat 32 q) = 1#1
      rw [show (BitVec.ofNat 32 p != BitVec.ofNat 32 q) = true from bne_iff_ne.mpr hne]
      rfl
    rw [this]
    show (((BitVec.setWidth 32 (1#1)).toInt : ℝ) : EReal) = 1
    simp

/-- The accumulator after a tile: what was read plus the double sum of the masked matrix of the tile. -/
theorem pay1_apply (i : grid0.Coords) (v37 : FVec Ideal S32x32 .f32) (v54 : Vec Ideal S1x1 .f32) :
    k0_pay1 (F := Ideal) (BitVec.ofNat 32 (i 1).val) v37 (iota .tc S32x32 32 [0] iota_S32x32_d0_w32) (k0_pay5 i) v54
        (ix2 (0 : Fin 1) (0 : Fin 1))
      = v54 (ix2 (0 : Fin 1) (0 : Fin 1))
        + ∑ a : Fin 32, ∑ b : Fin 32, v37 (ix2 a b) * maskVal ((i 0).val * 32 + a.val) ((i 1).val * 32 + b.val) := by
  unfold k0_pay1 k0_pay5
  dsimp only
  rw [shapeCast_self]
  refine (addf_apply _ _ _).trans ?_
  refine congrArg (v54 (ix2 (0 : Fin 1) (0 : Fin 1)) + ·) ?_
  refine (single_apply _ _).trans ?_
  refine (sum_rows _ _ _ _).trans ?_
  refine Finset.sum_congr rfl fun a _ => ?_
  refine (column_apply _ _ a).trans ?_
  refine (sum_lanes _ _ _ _ a).trans ?_
  refine Finset.sum_congr rfl fun b _ => ?_
  refine (mulf_apply _ _ _).trans ?_
  refine congrArg (v37 (ix2 a b) * ·) ?_
  have hi0 : (i 0).val < 8 := (i 0).isLt
  have hi1 : (i 1).val < 8 := (i 1).isLt
  show FloatOps.sitofp (F := Ideal) .f32 ((IntOp.cmpi .ne
      (IntOp.addi (Scalar.muli (BitVec.ofNat 32 (i 0).val) 32#32) (iota .tc S32x32 32 [0] iota_S32x32_d0_w32 (ix2 a b)))
      (IntOp.addi (Scalar.muli (BitVec.ofNat 32 (i 1).val) 32#32) (iota .tc S32x32 32 [1] iota_S32x32_d1_w32 (ix2 a b)))).setWidth 32) = _
  rw [iota_single_apply, iota_single_apply, pos_word, pos_word]
  exact mask_word _ _ (by have := a.isLt; show (i 0).val * 32 + a.val < 2 ^ 32; omega) (by have := b.isLt; show (i 1).val * 32 + b.val < 2 ^ 32; omega)

end Cert.KernelIdeal.KVal

end
-- ==== Proof.TileSum.lean ====
/-
  The 256 x 256 matrix of pairs of rows, summed tile by tile.

  The grid's 64 tiles t = 8 p + q (p, q < 8) split the pairs (i, j) as i = 32 p + a, j = 32 q + b with a, b < 32.
  Summing a function of the pair over the tiles and, inside a tile, over a and b, is summing it over all pairs:
  in a commutative monoid the order and grouping of a finite sum do not matter.
-/
import Idealize.ShloMosaic.Lib.ValueIdx

namespace Cert.PairDiv

/-- A sum over 256 rows, as the sum over the 8 row-tiles of the sum over the 32 rows of a tile. -/
theorem sum_rows_by_tile {M : Type*} [AddCommMonoid M] (g : Fin 256 → M) :
    ∑ i : Fin 256, g i = ∑ p : Fin 8, ∑ a : Fin 32, g ⟨p.val * 32 + a.val, by omega⟩ := by
  rw [← (finProdFinEquiv : Fin 8 × Fin 32 ≃ Fin 256).sum_comp, Fintype.sum_prod_type]
  refine Finset.sum_congr rfl fun p _ => Finset.sum_congr rfl fun a _ => congrArg g (Fin.ext ?_)
  show a.val + 32 * p.val = p.val * 32 + a.val
  omega

/-- A sum over the 64 tiles, as the sum over the tile's row index p and column index q. -/
theorem sum_tiles_by_coords {M : Type*} [AddCommMonoid M] (g : Fin 64 → M) :
    ∑ t : Fin 64, g t = ∑ p : Fin 8, ∑ q : Fin 8, g ⟨p.val * 8 + q.val, by omega⟩ := by
  rw [← (finProdFinEquiv : Fin 8 × Fin 8 ≃ Fin 64).sum_comp, Fintype.sum_prod_type]
  refine Finset.sum_congr rfl fun p _ => Finset.sum_congr rfl fun q _ => congrArg g (Fin.ext ?_)
  show q.val + 8 * p.val = p.val * 8 + q.val
  omega

/-- The sum over the tiles of the tile's double sum is the double sum over all pairs of rows. -/
theorem tiles_sum {M : Type*} [AddCommMonoid M] (f : Fin 256 → Fin 256 → M) :
    ∑ t : Fin 64, ∑ a : Fin 32, ∑ b : Fin 32,
        f ⟨(t.val / 8) * 32 + a.val, by omega⟩ ⟨(t.val % 8) * 32 + b.val, by omega⟩
      = ∑ i : Fin 256, ∑ j : Fin 256, f i j := by
  rw [sum_tiles_by_coords, sum_rows_by_tile]
  refine Finset.sum_congr rfl fun p _ => ?_
  have hcols : ∀ a : Fin 32, ∑ j : Fin 256, f ⟨p.val * 32 + a.val, by omega⟩ j
      = ∑ q : Fin 8, ∑ b : Fin 32, f ⟨p.val * 32 + a.val, by omega⟩ ⟨q.val * 32 + b.val, by omega⟩ :=
    fun a => sum_rows_by_tile _
  rw [Finset.sum_congr rfl fun a _ => hcols a, Finset.sum_comm]
  refine Finset.sum_congr rfl fun a _ => Finset.sum_congr rfl fun q _ => Finset.sum_congr rfl fun b _ => ?_
  have h1 : (p.val * 8 + q.val) / 8 = p.val := by omega
  have h2 : (p.val * 8 + q.val) % 8 = q.val := by omega
  exact congrArg₂ f (Fin.ext (by show (p.val * 8 + q.val) / 8 * 32 + a.val = p.val * 32 + a.val; rw [h1]))
    (Fin.ext (by show (p.val * 8 + q.val) % 8 * 32 + b.val = q.val * 32 + b.val; rw [h2]))

end Cert.PairDiv
-- ==== Proof.AccSum.lean ====
/-
  The accumulator after all 64 tiles is the sum over all ordered pairs of rows.

  A tile adds to the accumulator the double sum, over its 32 rows i = 32 (t / 8) + a and 32 rows j = 32 (t % 8) + b,
  of the divergence of row i from row j times the mask (zero when i = j). The accumulator starts at zero, so after
  the 64 tiles it holds the sum of these tile sums, which is the sum over all pairs; the result is that sum over 256.
-/
import proofs.«174177_j38474317038467_2_alg».proof.Proof.BlockRead
import proofs.«174177_j38474317038467_2_alg».proof.Proof.PayStep
import proofs.«174177_j38474317038467_2_alg».proof.Proof.TileSum

noncomputable section

namespace Cert.KernelIdeal.KVal

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The means as the region finds them, by row and coordinate. -/
abbrev mu (c : Dev nD) : Fin 256 → Fin 512 → EReal := PairDiv.mat (m ((c : Thread nD τ).loc main_arg0))
/-- The log-variances as the region finds them. -/
abbrev lv (c : Dev nD) : Fin 256 → Fin 512 → EReal := PairDiv.mat (m ((c : Thread nD τ).loc main_arg1))

/-- The masked divergence of row i from row j. -/
abbrev pairTerm (c : Dev nD) (i j : Fin 256) : EReal := PairDiv.div (mu m c) (lv m c) i j * PairDiv.offDiag i j

/-- The tile's double sum. -/
def tileSum (c : Dev nD) (t : Fin 64) : EReal :=
  ∑ a : Fin 32, ∑ b : Fin 32,
    pairTerm m c ⟨(t.val / 8) * 32 + a.val, by omega⟩ ⟨(t.val % 8) * 32 + b.val, by omega⟩

/-- One tile's step: the accumulator read, plus the tile's double sum. -/
theorem step_apply (c : Dev nD) (t : Fin cfg0.N) (s : Vec Ideal S1x1 .f32) :
    stepAt m c t s (ix2 (0 : Fin 1) (0 : Fin 1)) = s (ix2 (0 : Fin 1) (0 : Fin 1)) + tileSum m c (Fin.cast N_0 t) := by
  unfold stepAt
  refine (pay1_apply (grid0.coords t) _ s).trans ?_
  refine congrArg (s (ix2 (0 : Fin 1) (0 : Fin 1)) + ·) ?_
  unfold tileSum
  have ht : t.val < 64 := lt_of_lt_of_eq t.isLt N_0
  obtain ⟨c0, c1, -⟩ := tile_facts t
  refine Finset.sum_congr rfl fun a _ => Finset.sum_congr rfl fun b _ => ?_
  have ha := a.isLt
  have hb := b.isLt
  have hr : (⟨(t.val / 8) * 32 + a.val, by omega⟩ : Fin 256).val = (t.val / 8) * 32 + a.val := rfl
  have hq : (⟨(t.val % 8) * 32 + b.val, by omega⟩ : Fin 256).val = (t.val % 8) * 32 + b.val := rfl
  refine congrArg₂ (· * ·) ?_ ?_
  · refine (pay4_apply _ _ _ _ a b).trans ?_
    unfold PairDiv.div
    rw [zero_add]
    refine congrArg (PairDiv.half * ·) (Finset.sum_congr rfl fun d _ => ?_)
    unfold tileTerm PairDiv.term
    rw [iblk0_apply m c t a d _ hr, iblk1_apply m c t a d _ hr, iblk2_apply m c t b d _ hq, iblk3_apply m c t b d _ hq]
    rfl
  · unfold maskVal PairDiv.offDiag
    rw [c0, c1]
    refine if_congr ?_ rfl rfl
    exact ⟨fun h => Fin.ext h, fun h => congrArg Fin.val h⟩

/-- The accumulator the first tile's additions start from is zero. -/
theorem pay3_apply : k0_pay3 (F := Ideal) (ix2 (0 : Fin 1) (0 : Fin 1)) = 0 := by
  unfold k0_pay3
  rw [shapeCast_self]
  show Ideal.ofBits .f32 0x00000000#32 = 0
  exact Ideal.ofBits_zero_f32

/-- The accumulator before tile n: the sum of the tile sums of the tiles before it. -/
theorem acc_apply (c : Dev nD) : ∀ (n : ℕ) (h : n ≤ cfg0.N),
    accAt m c n h (ix2 (0 : Fin 1) (0 : Fin 1)) = ∑ t : Fin n, tileSum m c (Fin.cast N_0 (Fin.castLE h t))
  | 0, h => by
    rw [accAt_zero, pay3_apply]
    exact (Finset.sum_empty).symm
  | n + 1, h => by
    rw [accAt_succ, step_apply, acc_apply c n (Nat.le_of_lt h), Fin.sum_univ_castSucc]
    rfl

/-- After the last tile the accumulator holds the sum over all ordered pairs of rows. -/
theorem acc_total (c : Dev nD) (h : 64 ≤ cfg0.N) :
    accAt m c 64 h (ix2 (0 : Fin 1) (0 : Fin 1)) = PairDiv.total (mu m c) (lv m c) := by
  rw [acc_apply]
  unfold PairDiv.total
  rw [← PairDiv.tiles_sum (fun i j => pairTerm m c i j)]
  refine Finset.sum_congr rfl fun t _ => ?_
  rfl

/-- The result the last tile stores: the accumulator over 256. -/
theorem pay2_apply (v : Vec Ideal S1x1 .f32) :
    k0_pay2 (F := Ideal) v (ix2 (0 : Fin 1) (0 : Fin 1)) = Ideal.div (v (ix2 (0 : Fin 1) (0 : Fin 1))) PairDiv.c256 := by
  unfold k0_pay2
  rfl

/-- So the stored result is the specification's value. -/
theorem result_apply (c : Dev nD) (h : 64 ≤ cfg0.N) :
    k0_pay2 (F := Ideal) (accAt m c 64 h) (ix2 (0 : Fin 1) (0 : Fin 1)) = PairDiv.G (mu m c) (lv m c) := by
  rw [pay2_apply, acc_total]
  rfl

end Cert.KernelIdeal.KVal

end
-- ==== Proof.Final.lean ====
/-
  The result array after the run.

  The 1 x 1 result is written back once, after the last tile, from the staging buffer into which that tile stored
  accumulator / 256; the block written is the whole array. So the array ends holding that value at its one entry.
-/
import proofs.«174177_j38474317038467_2_alg».proof.Proof.BodyValue
import proofs.«174177_j38474317038467_2_alg».proof.Proof.AccSum

noncomputable section

namespace Cert.KernelIdeal.KVal

open Cert.KernelIdeal Cert.KernelIdeal.Gen Idealize.ShloMosaic Idealize.ShloMosaic.TcCoe Idealize.ShloMosaic.ValueIdx
open Idealize.SL.Sem

variable {F : FTy → Type} [FloatOps F]
variable (m : (ℓ : Loc nD τ sig) → Buf (Elt F) ℓ)

/-- The result window's block index is zero on both axes at every tile. -/
theorem out_index : ∀ t : Fin cfg0.N, win0_4.index t (0 : Fin 2) = 0 ∧ win0_4.index t (1 : Fin 2) = 0 :=
  (by decide +kernel : ∀ t : Fin grid0.N, _)

/-- What the last tile writes back is the stored result, read through the (whole-array) block. -/
theorem flushed4_eq (c : Dev nD) (h : 64 ≤ cfg0.N) (t : Fin cfg0.N) (hf : (cfg0.win 4).flush t = true) :
    (dats m 0 c).flushed 4 t = ((cfg0.win 4).blk t).view.read (Elt F) (k0_pay2 (accAt m c 64 h)) := by
  show (cfg0.win 4).cut (grid0.coords t) ((dats m 0 c).after 4 t) = _
  rw [after0_4]
  have ht : t.val = 63 := by
    have h1 := (flush0_4 t).mp hf
    have h2 : t.val < 64 := lt_of_lt_of_eq t.isLt N_0
    omega
  obtain ⟨n, hn⟩ := t
  obtain rfl : n = 63 := ht
  rw [result_eq m c hn]
  obtain ⟨e0, e1⟩ := out_index ⟨63, hn⟩
  funext j
  show k0_pay2 (accAt m c 64 hn) j = k0_pay2 (accAt m c 64 h) (((cfg0.win 4).blk ⟨63, hn⟩).view.emb j)
  refine congrArg _ (funext fun ax => Fin.ext ?_)
  match ax with
  | ⟨0, _⟩ => show (j 0).val = win0_4.index ⟨63, hn⟩ (0 : Fin 2) * 1 + 1 * (j 0).val; omega
  | ⟨1, _⟩ => show (j 1).val = win0_4.index ⟨63, hn⟩ (1 : Fin 2) * 1 + 1 * (j 1).val; omega

/-- The result array after the run holds the stored result. -/
theorem final4 (c : Dev nD) (h : 64 ≤ cfg0.N) : (dats m 0 c).arrAt 4 cfg0.N = k0_pay2 (accAt m c 64 h) := by
  refine (dats m 0 c).arrAt_eq_of_cover 4 _ (fun t hf => flushed4_eq m c h t hf) fun i => ?_
  have h63 : 63 < cfg0.N := h
  refine ⟨⟨63, h63⟩, (flush0_4 _).mpr rfl, ?_⟩
  show i ∈ ((View.whole main_v0).slice (win0_4.rect ⟨63, h63⟩)).set
  rw [View.set_slice_whole, Rect.mem_set_unit]
  obtain ⟨e0, e1⟩ := out_index ⟨63, h63⟩
  intro ax
  match ax with
  | ⟨0, _⟩ =>
    show win0_4.index ⟨63, h63⟩ (0 : Fin 2) * 1 ≤ (i 0).val ∧ (i 0).val < win0_4.index ⟨63, h63⟩ (0 : Fin 2) * 1 + 1
    have := (i 0).isLt
    have h1 : (i 0).val < 1 := this
    omega
  | ⟨1, _⟩ =>
    show win0_4.index ⟨63, h63⟩ (1 : Fin 2) * 1 ≤ (i 1).val ∧ (i 1).val < win0_4.index ⟨63, h63⟩ (1 : Fin 2) * 1 + 1
    have := (i 1).isLt
    have h1 : (i 1).val < 1 := this
    omega

end Cert.KernelIdeal.KVal

end
-- ==== Proof.KernelValue.lean ====
/-
  The idealized kernel's run, read: the scalar result is the specification's value.

  After the run the scalar result is the reshape of the 1 x 1 result array, which holds accumulator / 256 after the
  last tile, and the accumulator is then the sum over all ordered pairs of rows of the masked divergences of the
  argument arrays (which the region finds as the launch left them).
-/
import proofs.«174177_j38474317038467_2_alg».proof.Proof.Frame
import proofs.«174177_j38474317038467_2_alg».proof.Proof.Final

noncomputable section

namespace Cert.KernelIdeal.KVal

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ) (ρ : Dev nD → PrngReg)

/-- The idealized kernel runs, its scalar result ends at the specification's value of the launch contents of the
    two argument arrays, and those end unchanged. -/
theorem value_run : θ_run defs (onTc (τ := τ) (main (F := Ideal))) ⟨m, fun _ => 0, ρ⟩ (fun r => ∀ c : Dev nD,
      r.2.mem ((c.tc : Thread nD τ).loc main_v1) = (fun _ => PairDiv.G (mu m c) (lv m c))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have h64 : 64 ≤ cfg0.N := le_of_eq N_0.symm
  refine (θ_run defs _ _).mono (fun r h c => ⟨?_, ?_, ?_⟩) (run_main m ρ)
  · refine ((h c).2).trans ?_
    funext i
    rw [resultOf_apply c _ i (ix2 (0 : Fin 1) (0 : Fin 1)), show (cfgs 0).N = cfg0.N from rfl, final4 m c h64]
    exact result_apply m c h64
  · exact (((h c).1 0).trans (((dats m 0 c).arrAt_in 0 rfl _).trans ((A_eq m c 0).trans (V_main_arg0 m c))))
  · exact (((h c).1 1).trans (((dats m 0 c).arrAt_in 1 rfl _).trans ((A_eq m c 1).trans (V_main_arg1 m c))))

end Cert.KernelIdeal.KVal

end
-- ==== Proof.RefTerm.lean ====
/-
  Two facts the reference's reading needs, both about single extended reals.

  Dividing by e^b, for a REAL b, is multiplying by e^(0 - b): e^b is a real that is not zero, so the quotient is
  the product with its reciprocal, and the reciprocal of e^b is e^(-b). The dividend may be any extended real. (At
  b = -∞ the quotient by e^b = 0 is an infinity or the junk value while e^(0 - b) = ⊤: the law needs b finite.)

  The reference's mask: one minus the indicator of "row number i, as a 32-bit word plus the zero word, equals row
  number j as a word" is one off the diagonal and zero on it, for row numbers below 256 (two numbers below 2^32
  with the same 32-bit word are equal).
-/
import proofs.«174177_j38474317038467_2_alg».proof.Proof.Spec
import Idealize.ShloMosaic.Lib.IdealHost
import Idealize.ShloMosaic.Lib.Affine

noncomputable section

namespace Cert.PairDiv.Ref

open Idealize.ShloMosaic

/-- Zero minus a real is the real's negative. -/
theorem zero_sub_coe (b : ℝ) : (0 : EReal) - (b : EReal) = ((-b : ℝ) : EReal) := by
  rw [zero_sub, EReal.coe_neg]

/-- A quotient by e^b is the product with e^(0 - b), for a real b. -/
theorem div_exp_coe (x : EReal) (b : ℝ) :
    Ideal.div x (Ideal.exp (b : EReal)) = x * Ideal.exp (0 - (b : EReal)) := by
  rw [zero_sub_coe, Ideal.exp_coe, Ideal.exp_coe, Ideal.div_coe (Real.exp_ne_zero b), Real.exp_neg, one_div]

/-- The same for an extended real known to be a real. -/
theorem div_exp_of_real (x y : EReal) (hy : ∃ r : ℝ, y = (r : EReal)) :
    Ideal.div x (Ideal.exp y) = x * Ideal.exp (0 - y) := by
  obtain ⟨b, rfl⟩ := hy
  exact div_exp_coe x b

/-- Two row numbers below 256 with the same 32-bit word are the same row. -/
theorem word_eq_iff (i j : Fin 256) : BitVec.ofNat 32 i.val = BitVec.ofNat 32 j.val ↔ i = j := by
  constructor
  · intro h
    have h' := congrArg BitVec.toNat h
    rw [BitVec.toNat_ofNat, BitVec.toNat_ofNat] at h'
    have hi := i.isLt
    have hj := j.isLt
    apply Fin.ext
    omega
  · intro h; rw [h]

/-- The mask: the word of one, minus the comparison read as a number, is one off the diagonal and zero on it. -/
theorem mask_eq (i j : Fin 256) :
    FloatOps.subf (F := Ideal) (FloatOps.ofBits .f32 0x3F800000#32)
      (FloatOps.uitofp .f32 (IntOp.cmpi .eq (IntOp.addi (BitVec.ofNat 32 i.val) 0#32) (BitVec.ofNat 32 j.val)))
      = offDiag i j := by
  show Ideal.ofBits .f32 0x3F800000#32
      - (((IntOp.cmpi .eq (IntOp.addi (BitVec.ofNat 32 i.val) 0#32) (BitVec.ofNat 32 j.val)).toNat : ℝ) : EReal) = offDiag i j
  rw [Ideal.ofBits_one_f32, IntOp.addi, BitVec.add_zero]
  unfold offDiag
  by_cases h : i = j
  · rw [if_pos h, (IntOp.cmpi_eq).mpr ((word_eq_iff i j).mpr h)]
    show 1 - (((1 : ℕ) : ℝ) : EReal) = 0
    rw [Nat.cast_one, EReal.coe_one, show (1 : EReal) = ((1 : ℝ) : EReal) by norm_cast, ← EReal.coe_sub, sub_self,
      EReal.coe_zero]
  · rw [if_neg h]
    have hc : IntOp.cmpi .eq (BitVec.ofNat 32 i.val) (BitVec.ofNat 32 j.val) = 0#1 := by
      rcases BitVec.eq_zero_or_eq_one (IntOp.cmpi .eq (BitVec.ofNat 32 i.val) (BitVec.ofNat 32 j.val)) with h0 | h1
      · exact h0
      · exact absurd ((word_eq_iff i j).mp ((IntOp.cmpi_eq).mp h1)) h
    rw [hc]
    show 1 - (((0 : ℕ) : ℝ) : EReal) = 1
    rw [Nat.cast_zero, EReal.coe_zero, sub_zero]

end Cert.PairDiv.Ref

end
-- ==== Proof.RefValue.lean ====
/-
  The reference computes the specification.

  The reference forms, on the 256 x 256 x 512 grid of (row i, row j, coordinate d), the term
      lv j - lv i + e^(lv i) / e^(lv j) + (mu i - mu j)² / e^(lv j) - 1,
  sums it over d from zero, halves it, multiplies by the mask "one minus (i = j)", sums over all (i, j) from zero and
  divides by 256. Each broadcast reads its operand at the coordinates it keeps, so every operand of the term is one
  entry of mu or lv; the two quotients by e^(lv j) are products with e^(0 - lv j) because lv j is a real; the mask is
  one off the diagonal and zero on it; and a sum over the pairs (i, j) is the double sum over i and over j.
-/
import proofs.«174177_j38474317038467_2_alg».proof.Proof.Spec
import proofs.«174177_j38474317038467_2_alg».proof.Proof.RefTerm
import proofs.«174177_j38474317038467_2_alg».proof.Proof.Gen.ReferenceIdeal.Read

noncomputable section

namespace Cert.PairDiv.Ref

open Idealize.ShloMosaic Idealize.ShloMosaic.ValueIdx Cert.ReferenceIdeal Cert.ReferenceIdeal.Read

variable (x0 x1 : (⟨S256x512, .f32⟩ : BufTy).Contents (Elt Ideal))

/-! ## The broadcasts at a grid point: each reads one entry of its matrix -/

/-- lv of row j. -/
theorem v7_at (i j : Fin 256) (d : Fin 512) : val_main_v7 (F := Ideal) x1 (ix3 i j d) = x1 (ix2 j d) := by
  rw [val_main_v7_apply, val_main_v4_apply]
  exact congrArg x1 (funext fun a => by match a with | ⟨0, _⟩ => rfl | ⟨1, _⟩ => rfl)

/-- lv of row i. -/
theorem v8_at (i j : Fin 256) (d : Fin 512) : val_main_v8 (F := Ideal) x1 (ix3 i j d) = x1 (ix2 i d) := by
  rw [val_main_v8_apply, val_main_v3_apply]
  exact congrArg x1 (funext fun a => by match a with | ⟨0, _⟩ => rfl | ⟨1, _⟩ => rfl)

/-- e^(lv of row i). -/
theorem v10_at (i j : Fin 256) (d : Fin 512) :
    val_main_v10 (F := Ideal) x1 (ix3 i j d) = Ideal.exp (x1 (ix2 i d)) := by
  rw [val_main_v10_apply, val_main_v5_apply, val_main_v0_apply, Ideal.hostUnary_exp_def]
  exact congrArg (fun z => Ideal.exp (x1 z)) (funext fun a => by match a with | ⟨0, _⟩ => rfl | ⟨1, _⟩ => rfl)

/-- e^(lv of row j), the first quotient's divisor. -/
theorem v11_at (i j : Fin 256) (d : Fin 512) :
    val_main_v11 (F := Ideal) x1 (ix3 i j d) = Ideal.exp (x1 (ix2 j d)) := by
  rw [val_main_v11_apply, val_main_v6_apply, val_main_v0_apply, Ideal.hostUnary_exp_def]
  exact congrArg (fun z => Ideal.exp (x1 z)) (funext fun a => by match a with | ⟨0, _⟩ => rfl | ⟨1, _⟩ => rfl)

/-- e^(lv of row j), the second quotient's divisor. -/
theorem v18_at (i j : Fin 256) (d : Fin 512) :
    val_main_v18 (F := Ideal) x1 (ix3 i j d) = Ideal.exp (x1 (ix2 j d)) := by
  rw [val_main_v18_apply, val_main_v6_apply, val_main_v0_apply, Ideal.hostUnary_exp_def]
  exact congrArg (fun z => Ideal.exp (x1 z)) (funext fun a => by match a with | ⟨0, _⟩ => rfl | ⟨1, _⟩ => rfl)

/-- mu of row i. -/
theorem v14_at (i j : Fin 256) (d : Fin 512) : val_main_v14 (F := Ideal) x0 (ix3 i j d) = x0 (ix2 i d) := by
  rw [val_main_v14_apply, val_main_v1_apply]
  exact congrArg x0 (funext fun a => by match a with | ⟨0, _⟩ => rfl | ⟨1, _⟩ => rfl)

/-- mu of row j. -/
theorem v15_at (i j : Fin 256) (d : Fin 512) : val_main_v15 (F := Ideal) x0 (ix3 i j d) = x0 (ix2 j d) := by
  rw [val_main_v15_apply, val_main_v2_apply]
  exact congrArg x0 (funext fun a => by match a with | ⟨0, _⟩ => rfl | ⟨1, _⟩ => rfl)

/-- The subtracted constant is the word of one everywhere. -/
theorem v21_at (i : S256x256x512.Idx) : val_main_v21 (F := Ideal) i = Ideal.ofBits .f32 0x3F800000#32 := by
  rw [val_main_v21_apply, val_main_cst_apply, Ideal.ofBits_def]

/-! ## One coordinate's term -/

/-- The reference's term at (i, j, d), with its two quotients. -/
theorem v22_at (i j : Fin 256) (d : Fin 512) :
    val_main_v22 (F := Ideal) x0 x1 (ix3 i j d)
      = (((x1 (ix2 j d) - x1 (ix2 i d)) + Ideal.div (Ideal.exp (x1 (ix2 i d))) (Ideal.exp (x1 (ix2 j d))))
          + Ideal.div ((x0 (ix2 i d) - x0 (ix2 j d)) * (x0 (ix2 i d) - x0 (ix2 j d))) (Ideal.exp (x1 (ix2 j d))))
        - Ideal.ofBits .f32 0x3F800000#32 := by
  rw [val_main_v22_apply, val_main_v20_apply, val_main_v13_apply, val_main_v9_apply, val_main_v12_apply,
    val_main_v19_apply, val_main_v17_apply, val_main_v16_apply, v7_at, v8_at, v10_at, v11_at, v14_at, v15_at, v18_at,
    v21_at]
  rfl

/-- With lv real, it is the specification's term. -/
theorem v22_term (h1 : ∀ i, ∃ r : ℝ, x1 i = (r : EReal)) (i j : Fin 256) (d : Fin 512) :
    val_main_v22 (F := Ideal) x0 x1 (ix3 i j d) = term (mat x0) (mat x1) i j d := by
  rw [v22_at, div_exp_of_real _ _ (h1 (ix2 j d)), div_exp_of_real _ _ (h1 (ix2 j d))]
  rfl

/-! ## One pair of rows -/

/-- The sum's grid point is (i, j, d). -/
theorem idx23 (i j : Fin 256) (d : Fin 512) : idx_main_v23 (ix2 i j) d = ix3 i j d :=
  funext fun a => by match a with | ⟨0, _⟩ => rfl | ⟨1, _⟩ => rfl | ⟨2, _⟩ => rfl

/-- Half the sum over the coordinates is the divergence of row i from row j. -/
theorem v25_at (h1 : ∀ i, ∃ r : ℝ, x1 i = (r : EReal)) (i j : Fin 256) :
    val_main_v25 (F := Ideal) x0 x1 (ix2 i j) = div (mat x0) (mat x1) i j := by
  rw [val_main_v25_apply, val_main_v24_apply, val_main_cst_1_apply, val_main_v23_apply, val_main_cst_0_apply,
    Ideal.mulf_def, Ideal.ofBits_def, Ideal.ofBits_def, Ideal.ofBits_zero_f32]
  unfold div
  refine congrArg (fun z => half * (0 + z)) (Finset.sum_congr rfl fun d _ => ?_)
  rw [idx23, v22_term x0 x1 h1]

/-- The mask at (i, j). -/
theorem v33_at (i j : Fin 256) : val_main_v33 (F := Ideal) (ix2 i j) = offDiag i j := by
  rw [val_main_v33_apply, val_main_v32_apply, val_main_cst_2_apply, val_main_v31_apply, val_main_v30_apply,
    val_main_v29_apply, val_main_v26_apply, val_main_v27_apply, val_main_v28_apply, val_main_c_apply]
  exact mask_eq i j

/-- The masked divergence at (i, j). -/
theorem v34_at (h1 : ∀ i, ∃ r : ℝ, x1 i = (r : EReal)) (i j : Fin 256) :
    val_main_v34 (F := Ideal) x0 x1 (ix2 i j) = div (mat x0) (mat x1) i j * offDiag i j := by
  rw [val_main_v34_apply, v25_at x0 x1 h1, v33_at, Ideal.mulf_def]

/-! ## The result -/

/-- The reference's result is the specification of its two arguments, when both are real everywhere (only the
    log-variances' finiteness is used). -/
theorem ref_eq (x0 x1 : (⟨Cert.ReferenceIdeal.S256x512, .f32⟩ : BufTy).Contents (Elt Ideal))
    (h0 : ∀ i, ∃ r : ℝ, x0 i = (r : EReal)) (h1 : ∀ i, ∃ r : ℝ, x1 i = (r : EReal)) :
    Cert.ReferenceIdeal.Read.val_main_v36 (F := Ideal) x0 x1
      = fun _ => Cert.PairDiv.G (Cert.PairDiv.mat x0) (Cert.PairDiv.mat x1) := by
  funext k
  rw [val_main_v36_apply, val_main_v35_apply, val_main_cst_4_apply, val_main_cst_3_apply, Ideal.hostDivf_def,
    Ideal.ofBits_def, Ideal.ofBits_def, Ideal.ofBits_zero_f32, zero_add, sum_idx2]
  unfold G total
  refine congrArg (fun z => Ideal.div z c256) (Finset.sum_congr rfl fun i _ => Finset.sum_congr rfl fun j _ => ?_)
  exact v34_at x0 x1 h1 i j

end Cert.PairDiv.Ref

end
-- ==== Proof.Finite.lean ====
/-
  What the precondition says of the two argument matrices: every entry is a real.

  The precondition is "all |x| < +∞" over the first matrix and over the second, the two answers and-ed, and it is
  stated to be the bit 1. An and of two bits is 1 only when both are; an and-reduction over a whole array into a
  single bit is 1 only when every entry's bit is; and an extended real x with max x (-x) below the top element is
  neither infinity (at either one the maximum is the top element), so it is a real.
-/
import proofs.«174177_j38474317038467_2_alg».proof.Defs
import Idealize.ShloMosaic.Lib.ReduceAll
import Idealize.ShloMosaic.Lib.ValueIdx

noncomputable section

namespace Cert.PairDiv.Finite

open Idealize.ShloMosaic

/-- The scalar shape has one index. -/
instance : Subsingleton Cert.Pre_finite_inputs.S_.Idx := ⟨fun a b => funext fun d => d.elim0⟩

/-- The word of +∞ is the top element. -/
theorem ofBits_inf : Ideal.ofBits .f32 0x7F800000#32 = ⊤ := by simp [Ideal.ofBits, Ideal.ieee]

/-- An extended real whose absolute value compares below +∞ is a real. -/
theorem real_of_abs_lt (x : EReal)
    (hx : Ideal.cmp .olt (max x (-x)) (Ideal.ofBits .f32 0x7F800000#32) = 1#1) : ∃ r : ℝ, x = (r : EReal) := by
  rw [ofBits_inf] at hx
  have hlt : max x (-x) < ⊤ := by
    by_contra hn
    have : Ideal.cmp .olt (max x (-x)) ⊤ = 0#1 := by
      show BitVec.ofBool (decide (max x (-x) < ⊤)) = 0#1
      rw [decide_eq_false hn]; rfl
    rw [this] at hx
    exact absurd hx (by decide)
  induction x using EReal.rec with
  | bot => exact absurd hlt (by simp)
  | coe r => exact ⟨r, rfl⟩
  | top => exact absurd hlt (by simp)

/-- Under the precondition both matrices are real everywhere. -/
theorem finite_of_pre [Cert.Pre_finite_inputs.Facts] (a0 a1 : FVec Ideal Cert.Pre_finite_inputs.S256x512 .f32)
    (h : Cert.Pre_finite_inputs.fn (F := Ideal) a0 a1 = (fun _ => 1#1)) :
    (∀ i, ∃ r : ℝ, a0 i = (r : EReal)) ∧ (∀ i, ∃ r : ℝ, a1 i = (r : EReal)) := by
  have h' := congrFun h ValueIdx.ix0
  dsimp only [Cert.Pre_finite_inputs.fn] at h'
  obtain ⟨ha, hb⟩ := IntOp.andi_eq_one.mp h'
  exact ⟨fun i => real_of_abs_lt (a0 i) (Host.reduce_andi_all _ _ _ _ _ ha i),
    fun i => real_of_abs_lt (a1 i) (Host.reduce_andi_all _ _ _ _ _ hb i)⟩

end Cert.PairDiv.Finite

end
-- ==== Proof.Claims.lean ====
/-
  The five claims of the certificate.

  The two kernel programs run and leave their arguments alone (the frame over the tile-by-tile invariant); the
  reference is straight-line host code; the idealization rewrote nothing; and at the ideal values both the kernel
  and the reference end at the same number: the sum over ordered pairs of different rows of the Gaussian divergence,
  over 256. The kernel multiplies by e^(-lv) where the reference divides by e^(lv): equal because the inputs are
  finite.
-/
import proofs.«174177_j38474317038467_2_alg».proof.Defs
import proofs.«174177_j38474317038467_2_alg».proof.Proof.Gen.Kernel
import proofs.«174177_j38474317038467_2_alg».proof.Proof.Gen.KernelIdeal
import proofs.«174177_j38474317038467_2_alg».proof.Proof.Gen.ReferenceIdeal
import proofs.«174177_j38474317038467_2_alg».proof.Proof.Gen.Pre_finite_inputs
import proofs.«174177_j38474317038467_2_alg».proof.Proof.Gen.ReferenceIdeal.Read
import proofs.«174177_j38474317038467_2_alg».proof.Proof.FrameW
import proofs.«174177_j38474317038467_2_alg».proof.Proof.KernelValue
import proofs.«174177_j38474317038467_2_alg».proof.Proof.RefValue
import proofs.«174177_j38474317038467_2_alg».proof.Proof.Finite

noncomputable section

namespace Cert.Proof.Claims

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the specification's value of the (shared, finite) arguments. -/
theorem algebraic : Cert.algebraic_KernelIdeal_ReferenceIdeal := by
  intro m ρ m' ρ' hpre hagree
  refine ⟨fun c => fun _ => Cert.PairDiv.G (Cert.KernelIdeal.KVal.mu m c) (Cert.KernelIdeal.KVal.lv m c),
    Cert.KernelIdeal.KVal.value_run m ρ, ?_⟩
  refine (θ_run Cert.ReferenceIdeal.defs _ _).mono (fun _ h c => ⟨?_, (h c).2⟩)
    (Cert.ReferenceIdeal.Value.run (F := Ideal) m' ρ')
  obtain ⟨h0, h1⟩ := Cert.PairDiv.Finite.finite_of_pre _ _ (hpre c)
  refine (h c).1.trans ((Cert.ReferenceIdeal.Read.val_main_v36_eq _ _).trans ?_)
  rw [(hagree c).1, (hagree c).2]
  exact Cert.PairDiv.Ref.ref_eq _ _ h0 h1

end Cert.Proof.Claims

end
-- ==== Proof.lean ====
/-
  The proof of the certificate's claim: a tiled Pallas kernel summing, over all ordered pairs of different rows of
  256 Gaussians (means and log-variances over 512 coordinates), the divergence of one from the other, against the
  plain jnp expression of the same sum.

  Proof/Claims.lean assembles the five conjuncts from: the kernel's frame over the accumulator's tile-by-tile
  invariant (Proof/Kit, RunA, RunB, RunC, Body, Launch, Frame, and their word-level twins), the value the kernel
  leaves (Proof/PayKl, PayStep, BlockRead, TileSum, AccSum, BodyValue, Final, KernelValue), the reference's value
  (Proof/RefTerm, RefValue, over the reference's run read operation by operation) and the finiteness of the inputs
  (Proof/Finite); Proof/Spec.lean states the common value.
-/
import proofs.«174177_j38474317038467_2_alg».proof.Defs
import proofs.«174177_j38474317038467_2_alg».proof.Proof.Claims
import proofs.«174177_j38474317038467_2_alg».proof.Proof.Gen.Kernel
import proofs.«174177_j38474317038467_2_alg».proof.Proof.Gen.KernelIdeal
import proofs.«174177_j38474317038467_2_alg».proof.Proof.Gen.ReferenceIdeal
import proofs.«174177_j38474317038467_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
